-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S64x2048 : Shape := ⟨2, ![64, 2048]⟩
abbrev S2048x64 : Shape := ⟨2, ![2048, 64]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part3 {F : FTy → Type} [FloatOps F] (main_arg11 : FVec F S2048x64 .f32) (main_arg12 : FVec F S2048x64 .f32) (main_v48 : IVec S_ 1) (main_v49 : FVec F S64x2048 .f32) (main_v50 : FVec F S64x2048 .f32) : IVec S_ 1 :=
  let main_v51 : IVec S64x2048 1 := cmpf .olt main_v49 main_v50
  let main_c_19 : IVec S_ 1 := constantI S_ 1 1#1
  let main_v52 : IVec S_ 1 := (fun x v => Host.reduce IntOp.andi x v reducesTo_S64x2048_S_d0_1 h_S_) main_v51 main_c_19
  let main_v53 : IVec S_ 1 := andi main_v48 main_v52
  let main_v54 : FVec F S2048x64 .f32 := Host.absf main_arg11
  let main_cst_20 : FVec F S_ .f32 := constant S_ .f32 0x7F800000#32
  let main_v55 : FVec F S2048x64 .f32 := broadcastInDim S2048x64 ![] bcast_S_S2048x64 main_cst_20
  let main_v56 : IVec S2048x64 1 := cmpf .olt main_v54 main_v55
  let main_c_21 : IVec S_ 1 := constantI S_ 1 1#1
  let main_v57 : IVec S_ 1 := (fun x v => Host.reduce IntOp.andi x v reducesTo_S2048x64_S_d0_1 h_S_) main_v56 main_c_21
  let main_v58 : IVec S_ 1 := andi main_v53 main_v57
  let main_v59 : FVec F S2048x64 .f32 := Host.absf main_arg12
  let main_cst_22 : FVec F S_ .f32 := constant S_ .f32 0x7F800000#32
  let main_v60 : FVec F S2048x64 .f32 := broadcastInDim S2048x64 ![] bcast_S_S2048x64 main_cst_22
  let main_v61 : IVec S2048x64 1 := cmpf .olt main_v59 main_v60
  let main_c_23 : IVec S_ 1 := constantI S_ 1 1#1
  let main_v62 : IVec S_ 1 := (fun x v => Host.reduce IntOp.andi x v reducesTo_S2048x64_S_d0_1 h_S_) main_v61 main_c_23
  let main_v63 : IVec S_ 1 := andi main_v58 main_v62
  main_v63

def fn_part2 {F : FTy → Type} [FloatOps F] (main_arg7 : FVec F S64x2048 .f32) (main_arg8 : FVec F S2048x64 .f32) (main_arg9 : FVec F S2048x64 .f32) (main_arg10 : FVec F S64x2048 .f32) (main_arg11 : FVec F S2048x64 .f32) (main_arg12 : FVec F S2048x64 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S2048x64 .f32 := Host.absf main_arg8
  let main_cst_14 : FVec F S_ .f32 := constant S_ .f32 0x7F800000#32
  let main_v40 : FVec F S2048x64 .f32 := broadcastInDim S2048x64 ![] bcast_S_S2048x64 main_cst_14
  let main_v41 : IVec S2048x64 1 := cmpf .olt main_v39 main_v40
  let main_c_15 : IVec S_ 1 := constantI S_ 1 1#1
  let main_v42 : IVec S_ 1 := (fun x v => Host.reduce IntOp.andi x v reducesTo_S2048x64_S_d0_1 h_S_) main_v41 main_c_15
  let main_v43 : IVec S_ 1 := andi main_v38 main_v42
  let main_v44 : FVec F S2048x64 .f32 := Host.absf main_arg9
  let main_cst_16 : FVec F S_ .f32 := constant S_ .f32 0x7F800000#32
  let main_v45 : FVec F S2048x64 .f32 := broadcastInDim S2048x64 ![] bcast_S_S2048x64 main_cst_16
  let main_v46 : IVec S2048x64 1 := cmpf .olt main_v44 main_v45
  let main_c_17 : IVec S_ 1 := constantI S_ 1 1#1
  let main_v47 : IVec S_ 1 := (fun x v => Host.reduce IntOp.andi x v reducesTo_S2048x64_S_d0_1 h_S_) main_v46 main_c_17
  let main_v48 : IVec S_ 1 := andi main_v43 main_v47
  let main_v49 : FVec F S64x2048 .f32 := Host.absf main_arg10
  let main_cst_18 : FVec F S_ .f32 := constant S_ .f32 0x7F800000#32
  let main_v50 : FVec F S64x2048 .f32 := broadcastInDim S64x2048 ![] bcast_S_S64x2048 main_cst_18
  fn_part3 (F := F) main_arg11 main_arg12 main_v48 main_v49 main_v50

def fn_part1 {F : FTy → Type} [FloatOps F] (main_arg4 : FVec F S64x2048 .f32) (main_arg5 : FVec F S2048x64 .f32) (main_arg6 : FVec F S2048x64 .f32) (main_arg7 : FVec F S64x2048 .f32) (main_arg8 : FVec F S2048x64 .f32) (main_arg9 : FVec F S2048x64 .f32) (main_arg10 : FVec F S64x2048 .f32) (main_arg11 : FVec F S2048x64 .f32) (main_arg12 : FVec F S2048x64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x2048x2048 .f32) (main_arg1 : FVec F S64x2048 .f32) (main_arg2 : FVec F S2048x64 .f32) (main_arg3 : FVec F S2048x64 .f32) (main_arg4 : FVec F S64x2048 .f32) (main_arg5 : FVec F S2048x64 .f32) (main_arg6 : FVec F S2048x64 .f32) (main_arg7 : FVec F S64x2048 .f32) (main_arg8 : FVec F S2048x64 .f32) (main_arg9 : FVec F S2048x64 .f32) (main_arg10 : FVec F S64x2048 .f32) (main_arg11 : FVec F S2048x64 .f32) (main_arg12 : FVec F S2048x64 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_arg7 main_arg8 main_arg9 main_arg10 main_arg11 main_arg12 main_v13 main_v16
-- ==== Kernel.lean ====
abbrev S2x2048x2048 : Shape := ⟨3, ![2, 2048, 2048]⟩
abbrev S64x2048 : Shape := ⟨2, ![64, 2048]⟩
abbrev S2048x64 : Shape := ⟨2, ![2048, 64]⟩
abbrev S4096x2048 : Shape := ⟨2, ![4096, 2048]⟩
abbrev S512x2048 : Shape := ⟨2, ![512, 2048]⟩
abbrev S512x64 : Shape := ⟨2, ![512, 64]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩

abbrev nBuf : Space → Nat
  | .hbm => 45
  | .vmem => 28
  | .smem => 0
  | _ => 0

abbrev bufTy : (tb : Table) → Fin (tcTables nBuf tb) → BufTy
  | .hbm, ⟨0, _⟩ => ⟨S2x2048x2048, .f32⟩
  | .hbm, ⟨1, _⟩ => ⟨S64x2048, .f32⟩
  | .hbm, ⟨2, _⟩ => ⟨S2048x64, .f32⟩
  | .hbm, ⟨3, _⟩ => ⟨S2048x64, .f32⟩
  | .hbm, ⟨4, _⟩ => ⟨S64x2048, .f32⟩
  | .hbm, ⟨5, _⟩ => ⟨S2048x64, .f32⟩
  | .hbm, ⟨6, _⟩ => ⟨S2048x64, .f32⟩
  | .hbm, ⟨7, _⟩ => ⟨S64x2048, .f32⟩
  | .hbm, ⟨8, _⟩ => ⟨S2048x64, .f32⟩
  | .hbm, ⟨9, _⟩ => ⟨S2048x64, .f32⟩
  | .hbm, ⟨10, _⟩ => ⟨S64x2048, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x64, .bf16⟩
  | .hbm, ⟨15, _⟩ => ⟨S2048x64, .f32⟩
  | .hbm, ⟨16, _⟩ => ⟨S2048x64, .f32⟩
  | .hbm, ⟨17, _⟩ => ⟨S64x2048, .f32⟩
  | .hbm, ⟨18, _⟩ => ⟨S64x2048, .bf16⟩
  | .hbm, ⟨19, _⟩ => ⟨S2048x64, .f32⟩
  | .hbm, ⟨20, _⟩ => ⟨S2048x64, .bf16⟩
  | .hbm, ⟨21, _⟩ => ⟨S2048x64, .f32⟩
  | .hbm, ⟨22, _⟩ => ⟨S2048x64, .f32⟩
  | .hbm, ⟨23, _⟩ => ⟨S64x2048, .f32⟩
  | .hbm, ⟨24, _⟩ => ⟨S64x2048, .bf16⟩
  | .hbm, ⟨25, _⟩ => ⟨S2048x64, .f32⟩
  | .hbm, ⟨26, _⟩ => ⟨S2048x64, .bf16⟩
  | .hbm, ⟨27, _⟩ => ⟨S2048x64, .f32⟩
  | .hbm, ⟨28, _⟩ => ⟨S2048x64, .f32⟩
  | .hbm, ⟨29, _⟩ => ⟨S64x2048, .f32⟩
  | .hbm, ⟨30, _⟩ => ⟨S64x2048, .bf16⟩
  | .hbm, ⟨31, _⟩ => ⟨S2048x64, .f32⟩
  | .hbm, ⟨32, _⟩ => ⟨S2048x64, .bf16⟩
  | .hbm, ⟨33, _⟩ => ⟨S2048x64, .f32⟩
  | .hbm, ⟨34, _⟩ => ⟨S2048x64, .f32⟩
  | .hbm, ⟨35, _⟩ => ⟨S64x2048, .f32⟩
  | .hbm, ⟨36, _⟩ => ⟨S64x2048, .bf16⟩
  | .hbm, ⟨37, _⟩ => ⟨S4096x2048, .f32⟩
  | .hbm, ⟨38, _⟩ => ⟨S4096x2048, .bf16⟩
  | .hbm, ⟨39, _⟩ => ⟨S4096x2048, .bf16⟩
  | .hbm, ⟨40, _⟩ => ⟨S4096x2048, .bf16⟩
  | .hbm, ⟨41, _⟩ => ⟨S4096x2048, .bf16⟩
  | .hbm, ⟨42, _⟩ => ⟨S4096x2048, .bf16⟩
  | .hbm, ⟨43, _⟩ => ⟨S4096x2048, .f32⟩
  | .hbm, ⟨44, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x64, .bf16⟩
  | .local _ .vmem, ⟨3, _⟩ => ⟨S2048x64, .bf16⟩
  | .local _ .vmem, ⟨4, _⟩ => ⟨S2048x64, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x128, .bf16⟩
  | .local _ .vmem, ⟨15, _⟩ => ⟨S512x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S512x128, .bf16⟩
  | .local _ .vmem, ⟨21, _⟩ => ⟨S512x128, .bf16⟩
  | .local _ .vmem, ⟨22, _⟩ => ⟨S512x2048, .bf16⟩
  | .local _ .vmem, ⟨23, _⟩ => ⟨S512x2048, .bf16⟩
  | .local _ .vmem, ⟨24, _⟩ => ⟨S2048x64, .bf16⟩
  | .local _ .vmem, ⟨25, _⟩ => ⟨S64x2048, .bf16⟩
  | .local _ .vmem, ⟨26, _⟩ => ⟨S512x2048, .f32⟩
  | .local _ .vmem, ⟨27, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![2, 16, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S64x2048_S2048x64_1_0 : S64x2048.Transposes [1, 0] S2048x64
  bitsLt_bf16_f32 : FTy.bits .bf16 < FTy.bits .f32
  transposes_S2048x64_S64x2048_1_0 : S2048x64.Transposes [1, 0] S64x2048
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S512x2048_S512x2048_0_0 : (Rect.unit (s := S512x2048) ![0, 0] S512x2048.size inb_S512x2048_S512x2048_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S512x2048_S512 : S512x2048.Reduces [1] S512
  shapeCasts_S512_S512x1 : S512.ShapeCasts S512x1
  broadcasts_S512x1_S512x2048 : S512x1.Broadcasts S512x2048
  packedbf16_S512x128_S512x128_0_0 : (Rect.unit (s := S512x128) ![0, 0] S512x128.size inb_S512x128_S512x128_0_0).PackedRows (EltTy.packing .bf16)
  shapeCasts_S4096x2048_S2x2048x2048 : S4096x2048.ShapeCasts S2x2048x2048
  dot_S512x2048_S2048x64_S512x64_1_0_0_1_n_n_wf : DotDims.WF S512x2048 S2048x64 S512x64 [1] [0] [0] [1] [] []
  dot_S512x64_S64x2048_S512x2048_1_0_0_1_n_n_wf : DotDims.WF S512x64 S64x2048 S512x2048 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .bf16 = 32 ∨ (Rect.block (s := S2048x64) S2048x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .bf16 = 32 ∨ (Rect.block (s := S2048x64) S2048x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .bf16 = 32 ∨ (Rect.block (s := S64x2048) S64x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .bf16 = 32 ∨ (Rect.block (s := S64x2048) S64x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S4096x2048.size a
  hwx0_7 : ∀ i : grid0.Coords, EltTy.bits .bf16 = 32 ∨ (Rect.block (s := S4096x2048) S512x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S4096x2048.size a
  hwx0_8 : ∀ i : grid0.Coords, EltTy.bits .bf16 = 32 ∨ (Rect.block (s := S4096x2048) S512x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S4096x2048.size a
  hwx0_9 : ∀ i : grid0.Coords, EltTy.bits .bf16 = 32 ∨ (Rect.block (s := S4096x2048) S512x2048.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x2048.size a
  hwx1_0 : ∀ i : grid1.Coords, EltTy.bits .bf16 = 32 ∨ (Rect.block (s := S4096x2048) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x2048.size a
  hwx1_1 : ∀ i : grid1.Coords, EltTy.bits .bf16 = 32 ∨ (Rect.block (s := S4096x2048) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x2048.size a
  hwx1_2 : ∀ i : grid1.Coords, EltTy.bits .bf16 = 32 ∨ (Rect.block (s := S4096x2048) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x2048.size a
  hwx1_3 : ∀ i : grid1.Coords, EltTy.bits .bf16 = 32 ∨ (Rect.block (s := S4096x2048) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S2048x64.size a
  hwx2_1 : ∀ i : grid2.Coords, EltTy.bits .bf16 = 32 ∨ (Rect.block (s := S2048x64) S2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2048.size a ≤ S64x2048.size a
  hwx2_2 : ∀ i : grid2.Coords, EltTy.bits .bf16 = 32 ∨ (Rect.block (s := S64x2048) S64x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v25) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S64x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S512x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S512x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_2) S512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S64x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S64x2048 : Shape := ⟨2, ![64, 2048]⟩
abbrev S2048x64 : Shape := ⟨2, ![2048, 64]⟩
abbrev S2x2048x64 : Shape := ⟨3, ![2, 2048, 64]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S64x2048, .f32⟩
  | .hbm, ⟨2, _⟩ => ⟨S2048x64, .f32⟩
  | .hbm, ⟨3, _⟩ => ⟨S2048x64, .f32⟩
  | .hbm, ⟨4, _⟩ => ⟨S64x2048, .f32⟩
  | .hbm, ⟨5, _⟩ => ⟨S2048x64, .f32⟩
  | .hbm, ⟨6, _⟩ => ⟨S2048x64, .f32⟩
  | .hbm, ⟨7, _⟩ => ⟨S64x2048, .f32⟩
  | .hbm, ⟨8, _⟩ => ⟨S2048x64, .f32⟩
  | .hbm, ⟨9, _⟩ => ⟨S2048x64, .f32⟩
  | .hbm, ⟨10, _⟩ => ⟨S64x2048, .f32⟩
  | .hbm, ⟨11, _⟩ => ⟨S2048x64, .f32⟩
  | .hbm, ⟨12, _⟩ => ⟨S2048x64, .f32⟩
  | .hbm, ⟨13, _⟩ => ⟨S2x2048x64, .f32⟩
  | .hbm, ⟨14, _⟩ => ⟨S2048x64, .f32⟩
  | .hbm, ⟨15, _⟩ => ⟨S2048x64, .f32⟩
  | .hbm, ⟨16, _⟩ => ⟨S2x2048x2048, .f32⟩
  | .hbm, ⟨17, _⟩ => ⟨S2x2048x64, .f32⟩
  | .hbm, ⟨18, _⟩ => ⟨S2048x64, .f32⟩
  | .hbm, ⟨19, _⟩ => ⟨S2048x64, .f32⟩
  | .hbm, ⟨20, _⟩ => ⟨S2x2048x2048, .f32⟩
  | .hbm, ⟨21, _⟩ => ⟨S2x2048x64, .f32⟩
  | .hbm, ⟨22, _⟩ => ⟨S2048x64, .f32⟩
  | .hbm, ⟨23, _⟩ => ⟨S2048x64, .f32⟩
  | .hbm, ⟨24, _⟩ => ⟨S2x2048x2048, .f32⟩
  | .hbm, ⟨25, _⟩ => ⟨S2x2048x16x128, .f32⟩
  | .hbm, ⟨26, _⟩ => ⟨S2x16x2048x128, .f32⟩
  | .hbm, ⟨27, _⟩ => ⟨S2x2048x16x128, .f32⟩
  | .hbm, ⟨28, _⟩ => ⟨S2x16x2048x128, .f32⟩
  | .hbm, ⟨29, _⟩ => ⟨S2x2048x16x128, .f32⟩
  | .hbm, ⟨30, _⟩ => ⟨S2x16x2048x128, .f32⟩
  | .hbm, ⟨31, _⟩ => ⟨S2x16x2048x2048, .f32⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x128, .f32⟩
  | .hbm, ⟨50, _⟩ => ⟨S2x2048x16x128, .f32⟩
  | .hbm, ⟨51, _⟩ => ⟨S2x2048x2048, .f32⟩
  | .hbm, ⟨52, _⟩ => ⟨S2x2048x64, .f32⟩
  | .hbm, ⟨53, _⟩ => ⟨S2048x64, .f32⟩
  | .hbm, ⟨54, _⟩ => ⟨S2048x64, .f32⟩
  | .hbm, ⟨55, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S64x2048_S2x2048x64_2_1_01_0_n_n_wf : DotDims.WF S2x2048x2048 S64x2048 S2x2048x64 [2] [1] [0, 1] [0] [] []
  dot_S2x2048x64_S2048x64_S2x2048x2048_2_1_01_0_n_n_wf : DotDims.WF S2x2048x64 S2048x64 S2x2048x2048 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S64x2048_S2x2048x64_2_1_01_0_n_n : DotDims S2x2048x2048 S64x2048 S2x2048x64 where
  lhsContracting := [2]
  rhsContracting := [1]
  lhsNonContracting := [0, 1]
  rhsNonContracting := [0]
  lhsBatch := []
  rhsBatch := []
  wf := dot_S2x2048x2048_S64x2048_S2x2048x64_2_1_01_0_n_n_wf
def dot_S2x2048x64_S2048x64_S2x2048x2048_2_1_01_0_n_n : DotDims S2x2048x64 S2048x64 S2x2048x2048 where
  lhsContracting := [2]
  rhsContracting := [1]
  lhsNonContracting := [0, 1]
  rhsNonContracting := [0]
  lhsBatch := []
  rhsBatch := []
  wf := dot_S2x2048x64_S2048x64_S2x2048x2048_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  The specification, on the extended reals: what the result array holds as ONE function of the argument arrays,
  written over plain matrices (functions of two finite indices).

  The model is a holographic attention layer over B = 2 sequences of S = 2048 rows of width 2048, split into 16 heads of
  128 lanes. A projection is kept FACTORED through 64 harmonics: row `r` of `x` is first resolved against the 64 basis
  rows, `res r h = ∑ d, x r d · basis h d`, and the output column `o` is `∑ h, res r h · (amp o h · cos (phase o h))`.
  Queries, keys and values are three such projections of the input; within a batch `b` and a head `h` the score of query
  position `s` against key position `j` is the inner product of the two 128-lane slices times a fixed scale; each row of
  scores is turned into weights by `exp (· − max) / ∑ exp (· − max)`; the weighted sum of the value slices is the
  attention output, and a fourth projection of it is the result.

  Rows are flattened as `b · 2048 + s`, columns as `h · 128 + d`: `rowOf`, `colOf` and their inverses.
-/
import Idealize.ShloMosaic.PureOps.Ideal
import Idealize.ShloMosaic.Lib.ValueIdx

noncomputable section

namespace Cert.Spec

open Idealize.ShloMosaic

/-! ## Rows as (batch, position), columns as (head, lane) -/

/-- Row `b · 2048 + s` of a flattened `[2 · 2048, ·]` array. -/
def rowOf (b : Fin 2) (s : Fin 2048) : Fin 4096 := ⟨b.val * 2048 + s.val, by have := b.isLt; have := s.isLt; omega⟩
/-- Column `h · 128 + d`: lane `d` of head `h`. -/
def colOf (h : Fin 16) (d : Fin 128) : Fin 2048 := ⟨h.val * 128 + d.val, by have := h.isLt; have := d.isLt; omega⟩
/-- The batch a flattened row belongs to. -/
def bOf (r : Fin 4096) : Fin 2 := ⟨r.val / 2048, by have := r.isLt; omega⟩
/-- The position of a flattened row inside its batch. -/
def sOf (r : Fin 4096) : Fin 2048 := ⟨r.val % 2048, by omega⟩
/-- The head a column belongs to. -/
def hOf (c : Fin 2048) : Fin 16 := ⟨c.val / 128, by have := c.isLt; omega⟩
/-- The lane of a column inside its head. -/
def dOf (c : Fin 2048) : Fin 128 := ⟨c.val % 128, by omega⟩

theorem rowOf_val (b : Fin 2) (s : Fin 2048) : (rowOf b s).val = b.val * 2048 + s.val := rfl
theorem colOf_val (h : Fin 16) (d : Fin 128) : (colOf h d).val = h.val * 128 + d.val := rfl
theorem bOf_val (r : Fin 4096) : (bOf r).val = r.val / 2048 := rfl
theorem sOf_val (r : Fin 4096) : (sOf r).val = r.val % 2048 := rfl
theorem hOf_val (c : Fin 2048) : (hOf c).val = c.val / 128 := rfl
theorem dOf_val (c : Fin 2048) : (dOf c).val = c.val % 128 := rfl

theorem rowOf_bOf_sOf (r : Fin 4096) : rowOf (bOf r) (sOf r) = r :=
  Fin.ext (by rw [rowOf_val, bOf_val, sOf_val]; omega)
theorem colOf_hOf_dOf (c : Fin 2048) : colOf (hOf c) (dOf c) = c :=
  Fin.ext (by rw [colOf_val, hOf_val, dOf_val]; omega)
theorem bOf_rowOf (b : Fin 2) (s : Fin 2048) : bOf (rowOf b s) = b :=
  Fin.ext (by rw [bOf_val, rowOf_val]; have := s.isLt; omega)
theorem sOf_rowOf (b : Fin 2) (s : Fin 2048) : sOf (rowOf b s) = s :=
  Fin.ext (by rw [sOf_val, rowOf_val]; have := s.isLt; omega)
theorem hOf_colOf (h : Fin 16) (d : Fin 128) : hOf (colOf h d) = h :=
  Fin.ext (by rw [hOf_val, colOf_val]; have := d.isLt; omega)
theorem dOf_colOf (h : Fin 16) (d : Fin 128) : dOf (colOf h d) = d :=
  Fin.ext (by rw [dOf_val, colOf_val]; have := d.isLt; omega)

/-! ## Arrays as matrices -/

/-- A two-axis array read as a matrix. -/
abbrev mat {n k : Nat} (A : (⟨2, ![n, k]⟩ : Shape).Idx → EReal) : Fin n → Fin k → EReal :=
  fun r c => A (ValueIdx.ix2 r c)

/-- The `[2, 2048, ·]` input read as a matrix of flattened rows. -/
abbrev mat3 {k : Nat} (A : (⟨3, ![2, 2048, k]⟩ : Shape).Idx → EReal) : Fin 4096 → Fin k → EReal :=
  fun r c => A (ValueIdx.ix3 (bOf r) (sOf r) c)

/-! ## The factored projection -/

/-- `(x · bT) · wT`: rows resolved against the 64 harmonics, then spread over the output columns. -/
def projT (x : Fin 4096 → Fin 2048 → EReal) (bT : Fin 2048 → Fin 64 → EReal) (wT : Fin 64 → Fin 2048 → EReal) :
    Fin 4096 → Fin 2048 → EReal :=
  fun r o => ∑ h : Fin 64, (∑ d : Fin 2048, x r d * bT d h) * wT h o

/-- The basis, transposed: harmonics along the columns. -/
def tr (basis : Fin 64 → Fin 2048 → EReal) : Fin 2048 → Fin 64 → EReal := fun d h => basis h d

/-- The modulation weights `amp · cos phase`, transposed: harmonics along the rows. -/
def wgt (amp phase : Fin 2048 → Fin 64 → EReal) : Fin 64 → Fin 2048 → EReal :=
  fun h o => amp o h * Ideal.cos (phase o h)

/-! ## Attention inside one (batch, head) -/

/-- The scale of the scores: the single-precision word nearest `1 / √128`, kept as its pattern (both programs
    carry the same word, so its value is never needed). -/
def scale : EReal := Ideal.ofBits .f32 0x3DB504F3#32

/-- The value a row maximum starts from: the pattern of `−∞`. -/
def negInf : EReal := Ideal.ofBits .f32 0xFF800000#32

/-- The score of query position `s` against key position `j` in batch `b`, head `h`. -/
def score (q k : Fin 4096 → Fin 2048 → EReal) (b : Fin 2) (h : Fin 16) (s j : Fin 2048) : EReal :=
  (∑ e : Fin 128, q (rowOf b s) (colOf h e) * k (rowOf b j) (colOf h e)) * scale

/-- The maximum of a row of scores, folded from `negInf`. -/
def rmax (f : Fin 2048 → EReal) : EReal := (Finset.univ : Finset (Fin 2048)).fold max negInf f

/-- The attention weights of a row of scores. -/
def smax (f : Fin 2048 → EReal) (j : Fin 2048) : EReal :=
  Ideal.div (Ideal.exp (f j - rmax f)) (∑ j' : Fin 2048, Ideal.exp (f j' - rmax f))

/-- The attention output: at row `r` = (b, s) and column `c` = (h, d), the weights of row `s` of the scores of
    (b, h) against the values' lane `d` of head `h`, summed over the key positions. -/
def attn (q k v : Fin 4096 → Fin 2048 → EReal) : Fin 4096 → Fin 2048 → EReal :=
  fun r c => ∑ j : Fin 2048, smax (score q k (bOf r) (hOf c) (sOf r)) j * v (rowOf (bOf r) j) (colOf (hOf c) (dOf c))

/-- Folding `max` from a starting value never goes below it: taking the maximum with it again changes nothing. -/
theorem max_negInf_rmax (f : Fin 2048 → EReal) : max negInf (rmax f) = rmax f :=
  max_eq_right (Finset.le_fold_max negInf |>.mpr (Or.inl le_rfl))

/-! ## The whole layer -/

/-- The result from the flattened input and the four parameter triples (basis, phase, amplitude). -/
def model (X : Fin 4096 → Fin 2048 → EReal)
    (Bq : Fin 64 → Fin 2048 → EReal) (Pq Aq : Fin 2048 → Fin 64 → EReal)
    (Bk : Fin 64 → Fin 2048 → EReal) (Pk Ak : Fin 2048 → Fin 64 → EReal)
    (Bv : Fin 64 → Fin 2048 → EReal) (Pv Av : Fin 2048 → Fin 64 → EReal)
    (Bo : Fin 64 → Fin 2048 → EReal) (Po Ao : Fin 2048 → Fin 64 → EReal) : Fin 4096 → Fin 2048 → EReal :=
  projT (attn (projT X (tr Bq) (wgt Aq Pq)) (projT X (tr Bk) (wgt Ak Pk)) (projT X (tr Bv) (wgt Av Pv))) (tr Bo) (wgt Ao Po)

end Cert.Spec

end
-- ==== Proof.KRun.lean ====
/-
  The kernel's run with its result array NAMED.

  @main is five segments: the host operations that stage the transposed bases, the modulation weights and the flattened
  input; the three regions (the q/k/v projections, the attention inside each (batch, head), the output projection); and the
  reshape of the last region's output back to [2, 2048, 2048]. Every weakly fair execution terminates, nothing
  faulting, and in every final state the result buffer holds what the fold of the segments leaves there — the contents
  after the last host operation, read at the result's reference — while every argument array is as launched.
-/
import proofs.«159476_j19301583029009_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the five segments from the launch memory: the result buffer ends at the last boundary's contents, the
    arguments as launched. -/
theorem run_named : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Val

end
-- ==== Proof.ProjBlock.lean ====
/-
  The factored projection of one row block: the two-matmul payloads of the projection kernels, read at an index.

  For a row block `x` of 512 rows, a matrix `b` of 2048 × 64 and a matrix `w` of 64 × 2048, each payload is
  `(x · b) · w`, and its entry at row `p`, column `q` is `∑ h, (∑ d, x p d · b d h) · w h q`: a matmul into the zero
  accumulator is the plain sum over the contracted axis, and the precision changes in between are the identity on the
  extended reals.
-/
import proofs.«159476_j19301583029009_2_alg».proof.Proof.Gen.KernelIdeal.Frame
import proofs.«159476_j19301583029009_2_alg».proof.Proof.Spec
import Idealize.ShloMosaic.Lib.Pipeline.Value
import Idealize.ShloMosaic.PureOps.Ideal.Laws

noncomputable section
namespace Cert.KernelIdeal.Val
open Cert.KernelIdeal Cert.KernelIdeal.Gen Idealize.ShloMosaic Idealize.ShloMosaic.TcCoe Idealize.SL.Sem
open ValueIdx

/-! ## The first product: the row block against the 2048 × 64 matrix -/

theorem proj_mmA_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem proj_mmA_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem proj_mmA_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem proj_mmA_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product into the zero accumulator at row `p`, column `h`: the sum over the contracted axis. -/
theorem proj_mmA_apply {φ₁ φ₂ : FTy} (a : FVec Ideal S512x2048 φ₁) (b : FVec Ideal S2048x64 φ₂) (p : Fin 512) (h : Fin 64) :
    matmul dot_S512x2048_S2048x64_S512x64_1_0_0_1_n_n none a b (constant (F := Ideal) S512x64 .f32 0x00000000#32) (ix2 p h)
      = ∑ d : Fin 2048, a (ix2 p d) * b (ix2 d h) := by
  refine (Ideal.matmul_constant_zero_apply dot_S512x2048_S2048x64_S512x64_1_0_0_1_n_n none a b (ix2 p h)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p h) ((contrEquiv1 dot_S512x2048_S2048x64_S512x64_1_0_0_1_n_n 2048 rfl rfl).symm k) = ix2 p k :=
    funext fun a => Fin.ext (by
      match a with
      | ⟨0, _⟩ => exact proj_mmA_lhs0 _ _
      | ⟨1, _⟩ => exact (proj_mmA_lhs1 _ _).trans hk)
  have er : dot_S512x2048_S2048x64_S512x64_1_0_0_1_n_n.rhsIdx (ix2 p h) ((contrEquiv1 dot_S512x2048_S2048x64_S512x64_1_0_0_1_n_n 2048 rfl rfl).symm k) = ix2 k h :=
    funext fun a => Fin.ext (by
      match a with
      | ⟨0, _⟩ => exact (proj_mmA_rhs0 _ _).trans hk
      | ⟨1, _⟩ => exact proj_mmA_rhs1 _ _)
  rw [el, er]

/-! ## The second product: the 512 × 64 intermediate against the 64 × 2048 matrix -/

theorem proj_mmB_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem proj_mmB_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem proj_mmB_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem proj_mmB_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product into the zero accumulator at row `p`, column `h`: the sum over the contracted axis. -/
theorem proj_mmB_apply {φ₁ φ₂ : FTy} (a : FVec Ideal S512x64 φ₁) (b : FVec Ideal S64x2048 φ₂) (p : Fin 512) (h : Fin 2048) :
    matmul dot_S512x64_S64x2048_S512x2048_1_0_0_1_n_n none a b (constant (F := Ideal) S512x2048 .f32 0x00000000#32) (ix2 p h)
      = ∑ d : Fin 64, a (ix2 p d) * b (ix2 d h) := by
  refine (Ideal.matmul_constant_zero_apply dot_S512x64_S64x2048_S512x2048_1_0_0_1_n_n none a b (ix2 p h)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p h) ((contrEquiv1 dot_S512x64_S64x2048_S512x2048_1_0_0_1_n_n 64 rfl rfl).symm k) = ix2 p k :=
    funext fun a => Fin.ext (by
      match a with
      | ⟨0, _⟩ => exact proj_mmB_lhs0 _ _
      | ⟨1, _⟩ => exact (proj_mmB_lhs1 _ _).trans hk)
  have er : dot_S512x64_S64x2048_S512x2048_1_0_0_1_n_n.rhsIdx (ix2 p h) ((contrEquiv1 dot_S512x64_S64x2048_S512x2048_1_0_0_1_n_n 64 rfl rfl).symm k) = ix2 k h :=
    funext fun a => Fin.ext (by
      match a with
      | ⟨0, _⟩ => exact (proj_mmB_rhs0 _ _).trans hk
      | ⟨1, _⟩ => exact proj_mmB_rhs1 _ _)
  rw [el, er]

/-! ## The payloads -/

/-- `(x · b) · w` of a row block at row `p`, column `q`. -/
def proj_blk (x0 : S512x2048.Idx → EReal) (x1 : S2048x64.Idx → EReal) (x2 : S64x2048.Idx → EReal)
    (p : Fin 512) (q : Fin 2048) : EReal :=
  ∑ h : Fin 64, (∑ d : Fin 2048, x0 (ix2 p d) * x1 (ix2 d h)) * x2 (ix2 h q)

/-- The two products with the precision change between them, at an index. -/
theorem proj_twoProducts_apply (x0 : FVec Ideal S512x2048 .bf16) (x1 : FVec Ideal S2048x64 .bf16) (x2 : FVec Ideal S64x2048 .bf16)
    (p : Fin 512) (q : Fin 2048) :
    matmul dot_S512x64_S64x2048_S512x2048_1_0_0_1_n_n none
        (truncf .bf16 (matmul dot_S512x2048_S2048x64_S512x64_1_0_0_1_n_n none x0 x1 (constant (F := Ideal) S512x64 .f32 0x00000000#32)) bitsLt_bf16_f32)
        x2 (constant (F := Ideal) S512x2048 .f32 0x00000000#32) (ix2 p q)
      = proj_blk x0 x1 x2 p q := by
  refine (proj_mmB_apply _ x2 p q).trans ?_
  unfold proj_blk
  refine Finset.sum_congr rfl fun h _ => ?_
  refine congrArg (· * x2 (ix2 h q)) ?_
  exact proj_mmA_apply x0 x1 p h

/-- The first output's payload at an index. -/
theorem proj_k0_pay2_apply (x0 : Vec Ideal S512x2048 .bf16) (x1 : Vec Ideal S2048x64 .bf16) (x2 : Vec Ideal S64x2048 .bf16)
    (p : Fin 512) (q : Fin 2048) : k0_pay2 (F := Ideal) x0 x1 x2 (ix2 p q) = proj_blk x0 x1 x2 p q := by
  unfold k0_pay2 k0_pay1
  simp only [shapeCast_self]
  exact proj_twoProducts_apply x0 x1 x2 p q

/-- The second output's payload at an index. -/
theorem proj_k0_pay3_apply (x0 : Vec Ideal S512x2048 .bf16) (x1 : Vec Ideal S2048x64 .bf16) (x2 : Vec Ideal S64x2048 .bf16)
    (p : Fin 512) (q : Fin 2048) : k0_pay3 (F := Ideal) x0 x1 x2 (ix2 p q) = proj_blk x0 x1 x2 p q := by
  unfold k0_pay3 k0_pay1
  simp only [shapeCast_self]
  exact proj_twoProducts_apply x0 x1 x2 p q

/-- The third output's payload at an index. -/
theorem proj_k0_pay4_apply (x0 : Vec Ideal S512x2048 .bf16) (x1 : Vec Ideal S2048x64 .bf16) (x2 : Vec Ideal S64x2048 .bf16)
    (p : Fin 512) (q : Fin 2048) : k0_pay4 (F := Ideal) x0 x1 x2 (ix2 p q) = proj_blk x0 x1 x2 p q := by
  unfold k0_pay4 k0_pay1
  simp only [shapeCast_self]
  exact proj_twoProducts_apply x0 x1 x2 p q

/-- The last projection's payload at an index (its result stays in single precision). -/
theorem proj_k2_pay1_apply (x0 : Vec Ideal S512x2048 .bf16) (x1 : Vec Ideal S2048x64 .bf16) (x2 : Vec Ideal S64x2048 .bf16)
    (p : Fin 512) (q : Fin 2048) : k2_pay1 (F := Ideal) x0 x1 x2 (ix2 p q) = proj_blk x0 x1 x2 p q := by
  unfold k2_pay1
  simp only [shapeCast_self]
  exact proj_twoProducts_apply x0 x1 x2 p q

/-- The body's accesses start at offset zero on both axes. -/
theorem proj_zeroOffsets : (![0, 0] : Fin 2 → Nat) = fun _ => 0 := funext fun a => by fin_cases a <;> rfl

end Cert.KernelIdeal.Val
end
-- ==== Proof.Region0.lean ====
/-
  The first region: the query, key and value projections.

  The grid has 8 points; point `t` stages rows `512 t … 512 t + 511` of the input and the six parameter matrices whole,
  and writes back rows `512 t … 512 t + 511` of each of the three outputs. Each output block is the factored projection
  of the staged row block, so each output array ends as the projection of the whole input, entry by entry: the eight
  row blocks tile the 4096 rows.
-/
import proofs.«159476_j19301583029009_2_alg».proof.Proof.ProjBlock

noncomputable section
namespace Cert.KernelIdeal.Val
open Cert.KernelIdeal Cert.KernelIdeal.Gen Idealize.ShloMosaic Idealize.ShloMosaic.TcCoe Idealize.SL.Sem
open Idealize.ShloMosaic.Pipeline (Dat)
open Cert.Spec (mat mat3)
open ValueIdx

variable (V : (c : Dev nD) → (b : Ref sig .tc) → Buf (Elt Ideal) ((c : Thread nD τ).loc b))

/-! ## The printed index maps over the grid -/

/-- Window 0's block index at point `t` is `(t, 0)`: row block `t`, all columns. -/
theorem r0_blockIndex_0 : ∀ t : Fin cfg0.N, win0_0.index t (0 : Fin 2) = t.val ∧ win0_0.index t (1 : Fin 2) = 0 :=
  (by decide +kernel : ∀ t : Fin grid0.N, _)
/-- Window 7's block index at point `t` is `(t, 0)`: row block `t`, all columns. -/
theorem r0_blockIndex_7 : ∀ t : Fin cfg0.N, win0_7.index t (0 : Fin 2) = t.val ∧ win0_7.index t (1 : Fin 2) = 0 :=
  (by decide +kernel : ∀ t : Fin grid0.N, _)
/-- Window 8's block index at point `t` is `(t, 0)`: row block `t`, all columns. -/
theorem r0_blockIndex_8 : ∀ t : Fin cfg0.N, win0_8.index t (0 : Fin 2) = t.val ∧ win0_8.index t (1 : Fin 2) = 0 :=
  (by decide +kernel : ∀ t : Fin grid0.N, _)
/-- Window 9's block index at point `t` is `(t, 0)`: row block `t`, all columns. -/
theorem r0_blockIndex_9 : ∀ t : Fin cfg0.N, win0_9.index t (0 : Fin 2) = t.val ∧ win0_9.index t (1 : Fin 2) = 0 :=
  (by decide +kernel : ∀ t : Fin grid0.N, _)
/-- Window 1's block index is `(0, 0)` at every point: the whole array. -/
theorem r0_blockIndex_1 : ∀ t : Fin cfg0.N, win0_1.index t (0 : Fin 2) = 0 ∧ win0_1.index t (1 : Fin 2) = 0 :=
  (by decide +kernel : ∀ t : Fin grid0.N, _)
/-- Window 2's block index is `(0, 0)` at every point: the whole array. -/
theorem r0_blockIndex_2 : ∀ t : Fin cfg0.N, win0_2.index t (0 : Fin 2) = 0 ∧ win0_2.index t (1 : Fin 2) = 0 :=
  (by decide +kernel : ∀ t : Fin grid0.N, _)
/-- Window 3's block index is `(0, 0)` at every point: the whole array. -/
theorem r0_blockIndex_3 : ∀ t : Fin cfg0.N, win0_3.index t (0 : Fin 2) = 0 ∧ win0_3.index t (1 : Fin 2) = 0 :=
  (by decide +kernel : ∀ t : Fin grid0.N, _)
/-- Window 4's block index is `(0, 0)` at every point: the whole array. -/
theorem r0_blockIndex_4 : ∀ t : Fin cfg0.N, win0_4.index t (0 : Fin 2) = 0 ∧ win0_4.index t (1 : Fin 2) = 0 :=
  (by decide +kernel : ∀ t : Fin grid0.N, _)
/-- Window 5's block index is `(0, 0)` at every point: the whole array. -/
theorem r0_blockIndex_5 : ∀ t : Fin cfg0.N, win0_5.index t (0 : Fin 2) = 0 ∧ win0_5.index t (1 : Fin 2) = 0 :=
  (by decide +kernel : ∀ t : Fin grid0.N, _)
/-- Window 6's block index is `(0, 0)` at every point: the whole array. -/
theorem r0_blockIndex_6 : ∀ t : Fin cfg0.N, win0_6.index t (0 : Fin 2) = 0 ∧ win0_6.index t (1 : Fin 2) = 0 :=
  (by decide +kernel : ∀ t : Fin grid0.N, _)

/-! ## The input windows' blocks as entries of their arrays -/

/-- The row window's block at point `t` is rows `512 t … 512 t + 511` of its array. -/
theorem r0_rows_apply (c : Dev nD) (t : Fin cfg0.N) (p : Fin 512) (d : Fin 2048) (r : Fin 4096)
    (hr : r.val = t.val * 512 + p.val) :
    (iblk0 (F := Ideal) V c 0 t : Vec Ideal S512x2048 .bf16) (ix2 p d) = mat (V c main_v25) r d := by
  unfold iblk0
  rw [View.read_apply]
  show V c main_v25 _ = V c main_v25 _
  congr 1
  funext a
  apply Fin.ext
  match a with
  | ⟨0, _⟩ => show win0_0.index t (0 : Fin 2) * 512 + 1 * p.val = r.val; rw [(r0_blockIndex_0 t).1, hr]; omega
  | ⟨1, _⟩ => show win0_0.index t (1 : Fin 2) * 2048 + 1 * d.val = d.val; rw [(r0_blockIndex_0 t).2]; omega

/-- Window 1's block is its whole 2048 × 64 array at every point. -/
theorem r0_basis_1_apply (c : Dev nD) (t : Fin cfg0.N) (d : Fin 2048) (h : Fin 64) :
    (iblk0 (F := Ideal) V c 1 t : Vec Ideal S2048x64 .bf16) (ix2 d h) = mat (V c main_v1) d h := by
  unfold iblk0
  rw [View.read_apply]
  show V c main_v1 _ = V c main_v1 _
  congr 1
  funext a
  apply Fin.ext
  match a with
  | ⟨0, _⟩ => show win0_1.index t (0 : Fin 2) * 2048 + 1 * d.val = d.val; rw [(r0_blockIndex_1 t).1]; omega
  | ⟨1, _⟩ => show win0_1.index t (1 : Fin 2) * 64 + 1 * h.val = h.val; rw [(r0_blockIndex_1 t).2]; omega

/-- Window 2's block is its whole 2048 × 64 array at every point. -/
theorem r0_basis_2_apply (c : Dev nD) (t : Fin cfg0.N) (d : Fin 2048) (h : Fin 64) :
    (iblk0 (F := Ideal) V c 2 t : Vec Ideal S2048x64 .bf16) (ix2 d h) = mat (V c main_v7) d h := by
  unfold iblk0
  rw [View.read_apply]
  show V c main_v7 _ = V c main_v7 _
  congr 1
  funext a
  apply Fin.ext
  match a with
  | ⟨0, _⟩ => show win0_2.index t (0 : Fin 2) * 2048 + 1 * d.val = d.val; rw [(r0_blockIndex_2 t).1]; omega
  | ⟨1, _⟩ => show win0_2.index t (1 : Fin 2) * 64 + 1 * h.val = h.val; rw [(r0_blockIndex_2 t).2]; omega

/-- Window 3's block is its whole 2048 × 64 array at every point. -/
theorem r0_basis_3_apply (c : Dev nD) (t : Fin cfg0.N) (d : Fin 2048) (h : Fin 64) :
    (iblk0 (F := Ideal) V c 3 t : Vec Ideal S2048x64 .bf16) (ix2 d h) = mat (V c main_v13) d h := by
  unfold iblk0
  rw [View.read_apply]
  show V c main_v13 _ = V c main_v13 _
  congr 1
  funext a
  apply Fin.ext
  match a with
  | ⟨0, _⟩ => show win0_3.index t (0 : Fin 2) * 2048 + 1 * d.val = d.val; rw [(r0_blockIndex_3 t).1]; omega
  | ⟨1, _⟩ => show win0_3.index t (1 : Fin 2) * 64 + 1 * h.val = h.val; rw [(r0_blockIndex_3 t).2]; omega

/-- Window 4's block is its whole 64 × 2048 array at every point. -/
theorem r0_weights_4_apply (c : Dev nD) (t : Fin cfg0.N) (h : Fin 64) (q : Fin 2048) :
    (iblk0 (F := Ideal) V c 4 t : Vec Ideal S64x2048 .bf16) (ix2 h q) = mat (V c main_v5) h q := by
  unfold iblk0
  rw [View.read_apply]
  show V c main_v5 _ = V c main_v5 _
  congr 1
  funext a
  apply Fin.ext
  match a with
  | ⟨0, _⟩ => show win0_4.index t (0 : Fin 2) * 64 + 1 * h.val = h.val; rw [(r0_blockIndex_4 t).1]; omega
  | ⟨1, _⟩ => show win0_4.index t (1 : Fin 2) * 2048 + 1 * q.val = q.val; rw [(r0_blockIndex_4 t).2]; omega

/-- Window 5's block is its whole 64 × 2048 array at every point. -/
theorem r0_weights_5_apply (c : Dev nD) (t : Fin cfg0.N) (h : Fin 64) (q : Fin 2048) :
    (iblk0 (F := Ideal) V c 5 t : Vec Ideal S64x2048 .bf16) (ix2 h q) = mat (V c main_v11) h q := by
  unfold iblk0
  rw [View.read_apply]
  show V c main_v11 _ = V c main_v11 _
  congr 1
  funext a
  apply Fin.ext
  match a with
  | ⟨0, _⟩ => show win0_5.index t (0 : Fin 2) * 64 + 1 * h.val = h.val; rw [(r0_blockIndex_5 t).1]; omega
  | ⟨1, _⟩ => show win0_5.index t (1 : Fin 2) * 2048 + 1 * q.val = q.val; rw [(r0_blockIndex_5 t).2]; omega

/-- Window 6's block is its whole 64 × 2048 array at every point. -/
theorem r0_weights_6_apply (c : Dev nD) (t : Fin cfg0.N) (h : Fin 64) (q : Fin 2048) :
    (iblk0 (F := Ideal) V c 6 t : Vec Ideal S64x2048 .bf16) (ix2 h q) = mat (V c main_v17) h q := by
  unfold iblk0
  rw [View.read_apply]
  show V c main_v17 _ = V c main_v17 _
  congr 1
  funext a
  apply Fin.ext
  match a with
  | ⟨0, _⟩ => show win0_6.index t (0 : Fin 2) * 64 + 1 * h.val = h.val; rw [(r0_blockIndex_6 t).1]; omega
  | ⟨1, _⟩ => show win0_6.index t (1 : Fin 2) * 2048 + 1 * q.val = q.val; rw [(r0_blockIndex_6 t).2]; omega

/-! ## Output window 7 -/

/-- The body's result for window 7 at point `t`, at row `p`, column `q` of the block: the projection's entry at row
    `512 t + p`. -/
theorem r0_block_7 (c : Dev nD) (t : Fin cfg0.N) (p : Fin 512) (q : Fin 2048) (r : Fin 4096) (q' : Fin 2048)
    (hr : r.val = t.val * 512 + p.val) (hq : q'.val = q.val) :
    k0_pay2 (F := Ideal) (iblk0 V c 0 t) (iblk0 V c 1 t) (iblk0 V c 4 t) (ix2 p q)
      = Cert.Spec.projT (mat (V c main_v25)) (mat (V c main_v1)) (mat (V c main_v5)) r q' := by
  rw [show q' = q from Fin.ext hq]
  refine (proj_k0_pay2_apply (iblk0 V c 0 t) (iblk0 V c 1 t) (iblk0 V c 4 t) p q).trans ?_
  unfold proj_blk Cert.Spec.projT
  refine Finset.sum_congr rfl fun h _ => ?_
  exact congrArg₂ (· * ·)
    (Finset.sum_congr rfl fun d _ => congrArg₂ (· * ·) (r0_rows_apply V c t p d r hr) (r0_basis_1_apply V c t d h))
    (r0_weights_4_apply V c t h q)

/-- What point `t` writes back to window 7's array is block `t` of the projection. -/
theorem r0_flushed_7_eq (c : Dev nD) (t : Fin cfg0.N) :
    (dat0 (F := Ideal) V c).flushed 7 t = ((cfg0.win 7).blk t).view.read (Elt Ideal)
      (fun i : S4096x2048.Idx => Cert.Spec.projT (mat (V c main_v25)) (mat (V c main_v1)) (mat (V c main_v5)) (i 0) (i 1)) := by
  show (cfg0.win 7).cut (grid0.coords t) ((dat0 (F := Ideal) V c).after 7 t) = _
  rw [after0_7]
  unfold out0_7
  rw [View.canon_unit_zero proj_zeroOffsets]
  simp only [View.ld_unit_zero (S := S512x2048) proj_zeroOffsets, View.ld_unit_zero (S := S2048x64) proj_zeroOffsets,
    View.ld_unit_zero (S := S64x2048) proj_zeroOffsets]
  funext j
  show k0_pay2 (F := Ideal) (iblk0 V c 0 t) (iblk0 V c 1 t) (iblk0 V c 4 t) j
    = Cert.Spec.projT (mat (V c main_v25)) (mat (V c main_v1)) (mat (V c main_v5))
        (((cfg0.win 7).blk t).view.emb j 0) (((cfg0.win 7).blk t).view.emb j 1)
  refine (congrArg (k0_pay2 (F := Ideal) (iblk0 V c 0 t) (iblk0 V c 1 t) (iblk0 V c 4 t)) (eq_ix2 (n0 := 512) (n1 := 2048) j)).trans ?_
  refine r0_block_7 V c t (j 0) (j 1) _ _ ?_ ?_
  · show win0_7.index t (0 : Fin 2) * 512 + 1 * (j 0).val = _; rw [(r0_blockIndex_7 t).1]; omega
  · show win0_7.index t (1 : Fin 2) * 2048 + 1 * (j 1).val = _; rw [(r0_blockIndex_7 t).2]; omega

/-- An index of the array is in point `t`'s block iff each coordinate is in the block's range on its axis. -/
theorem r0_mem_blk_7 (t : Fin cfg0.N) (i : S4096x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v26_0).slice (win0_7.rect t)).set ↔ _
  rw [View.set_slice_whole, Rect.mem_set_unit]
  exact Iff.rfl

/-- Every index of the array is in some point's block: row `r` is in the block of point `r / 512`. -/
theorem r0_cover_7 (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  refine ⟨⟨(i 0).val / 512, by rw [show cfg0.N = 8 from N_0]; omega⟩, flush0_7 _, ?_⟩
  rw [r0_mem_blk_7]
  intro a
  match a with
  | ⟨0, _⟩ =>
    show win0_7.index _ (0 : Fin 2) * 512 ≤ (i 0).val ∧ (i 0).val < win0_7.index _ (0 : Fin 2) * 512 + 512
    rw [(r0_blockIndex_7 _).1]; dsimp only; omega
  | ⟨1, _⟩ =>
    show win0_7.index _ (1 : Fin 2) * 2048 ≤ (i 1).val ∧ (i 1).val < win0_7.index _ (1 : Fin 2) * 2048 + 2048
    rw [(r0_blockIndex_7 _).2]; omega

/-- Window 7's array after the region: the projection, entry by entry. -/
theorem final0_7 (c : Dev nD) : (dat0 (F := Ideal) V c).arrAt 7 cfg0.N
    = fun i : S4096x2048.Idx => Cert.Spec.projT (mat (V c main_v25)) (mat (V c main_v1)) (mat (V c main_v5)) (i 0) (i 1) :=
  (dat0 (F := Ideal) V c).arrAt_eq_of_cover 7 _ (fun t _ => r0_flushed_7_eq V c t) r0_cover_7

/-! ## Output window 8 -/

/-- The body's result for window 8 at point `t`, at row `p`, column `q` of the block: the projection's entry at row
    `512 t + p`. -/
theorem r0_block_8 (c : Dev nD) (t : Fin cfg0.N) (p : Fin 512) (q : Fin 2048) (r : Fin 4096) (q' : Fin 2048)
    (hr : r.val = t.val * 512 + p.val) (hq : q'.val = q.val) :
    k0_pay3 (F := Ideal) (iblk0 V c 0 t) (iblk0 V c 2 t) (iblk0 V c 5 t) (ix2 p q)
      = Cert.Spec.projT (mat (V c main_v25)) (mat (V c main_v7)) (mat (V c main_v11)) r q' := by
  rw [show q' = q from Fin.ext hq]
  refine (proj_k0_pay3_apply (iblk0 V c 0 t) (iblk0 V c 2 t) (iblk0 V c 5 t) p q).trans ?_
  unfold proj_blk Cert.Spec.projT
  refine Finset.sum_congr rfl fun h _ => ?_
  exact congrArg₂ (· * ·)
    (Finset.sum_congr rfl fun d _ => congrArg₂ (· * ·) (r0_rows_apply V c t p d r hr) (r0_basis_2_apply V c t d h))
    (r0_weights_5_apply V c t h q)

/-- What point `t` writes back to window 8's array is block `t` of the projection. -/
theorem r0_flushed_8_eq (c : Dev nD) (t : Fin cfg0.N) :
    (dat0 (F := Ideal) V c).flushed 8 t = ((cfg0.win 8).blk t).view.read (Elt Ideal)
      (fun i : S4096x2048.Idx => Cert.Spec.projT (mat (V c main_v25)) (mat (V c main_v7)) (mat (V c main_v11)) (i 0) (i 1)) := by
  show (cfg0.win 8).cut (grid0.coords t) ((dat0 (F := Ideal) V c).after 8 t) = _
  rw [after0_8]
  unfold out0_8
  rw [View.canon_unit_zero proj_zeroOffsets]
  simp only [View.ld_unit_zero (S := S512x2048) proj_zeroOffsets, View.ld_unit_zero (S := S2048x64) proj_zeroOffsets,
    View.ld_unit_zero (S := S64x2048) proj_zeroOffsets]
  funext j
  show k0_pay3 (F := Ideal) (iblk0 V c 0 t) (iblk0 V c 2 t) (iblk0 V c 5 t) j
    = Cert.Spec.projT (mat (V c main_v25)) (mat (V c main_v7)) (mat (V c main_v11))
        (((cfg0.win 8).blk t).view.emb j 0) (((cfg0.win 8).blk t).view.emb j 1)
  refine (congrArg (k0_pay3 (F := Ideal) (iblk0 V c 0 t) (iblk0 V c 2 t) (iblk0 V c 5 t)) (eq_ix2 (n0 := 512) (n1 := 2048) j)).trans ?_
  refine r0_block_8 V c t (j 0) (j 1) _ _ ?_ ?_
  · show win0_8.index t (0 : Fin 2) * 512 + 1 * (j 0).val = _; rw [(r0_blockIndex_8 t).1]; omega
  · show win0_8.index t (1 : Fin 2) * 2048 + 1 * (j 1).val = _; rw [(r0_blockIndex_8 t).2]; omega

/-- An index of the array is in point `t`'s block iff each coordinate is in the block's range on its axis. -/
theorem r0_mem_blk_8 (t : Fin cfg0.N) (i : S4096x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v26_1).slice (win0_8.rect t)).set ↔ _
  rw [View.set_slice_whole, Rect.mem_set_unit]
  exact Iff.rfl

/-- Every index of the array is in some point's block: row `r` is in the block of point `r / 512`. -/
theorem r0_cover_8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  refine ⟨⟨(i 0).val / 512, by rw [show cfg0.N = 8 from N_0]; omega⟩, flush0_8 _, ?_⟩
  rw [r0_mem_blk_8]
  intro a
  match a with
  | ⟨0, _⟩ =>
    show win0_8.index _ (0 : Fin 2) * 512 ≤ (i 0).val ∧ (i 0).val < win0_8.index _ (0 : Fin 2) * 512 + 512
    rw [(r0_blockIndex_8 _).1]; dsimp only; omega
  | ⟨1, _⟩ =>
    show win0_8.index _ (1 : Fin 2) * 2048 ≤ (i 1).val ∧ (i 1).val < win0_8.index _ (1 : Fin 2) * 2048 + 2048
    rw [(r0_blockIndex_8 _).2]; omega

/-- Window 8's array after the region: the projection, entry by entry. -/
theorem final0_8 (c : Dev nD) : (dat0 (F := Ideal) V c).arrAt 8 cfg0.N
    = fun i : S4096x2048.Idx => Cert.Spec.projT (mat (V c main_v25)) (mat (V c main_v7)) (mat (V c main_v11)) (i 0) (i 1) :=
  (dat0 (F := Ideal) V c).arrAt_eq_of_cover 8 _ (fun t _ => r0_flushed_8_eq V c t) r0_cover_8

/-! ## Output window 9 -/

/-- The body's result for window 9 at point `t`, at row `p`, column `q` of the block: the projection's entry at row
    `512 t + p`. -/
theorem r0_block_9 (c : Dev nD) (t : Fin cfg0.N) (p : Fin 512) (q : Fin 2048) (r : Fin 4096) (q' : Fin 2048)
    (hr : r.val = t.val * 512 + p.val) (hq : q'.val = q.val) :
    k0_pay4 (F := Ideal) (iblk0 V c 0 t) (iblk0 V c 3 t) (iblk0 V c 6 t) (ix2 p q)
      = Cert.Spec.projT (mat (V c main_v25)) (mat (V c main_v13)) (mat (V c main_v17)) r q' := by
  rw [show q' = q from Fin.ext hq]
  refine (proj_k0_pay4_apply (iblk0 V c 0 t) (iblk0 V c 3 t) (iblk0 V c 6 t) p q).trans ?_
  unfold proj_blk Cert.Spec.projT
  refine Finset.sum_congr rfl fun h _ => ?_
  exact congrArg₂ (· * ·)
    (Finset.sum_congr rfl fun d _ => congrArg₂ (· * ·) (r0_rows_apply V c t p d r hr) (r0_basis_3_apply V c t d h))
    (r0_weights_6_apply V c t h q)

/-- What point `t` writes back to window 9's array is block `t` of the projection. -/
theorem r0_flushed_9_eq (c : Dev nD) (t : Fin cfg0.N) :
    (dat0 (F := Ideal) V c).flushed 9 t = ((cfg0.win 9).blk t).view.read (Elt Ideal)
      (fun i : S4096x2048.Idx => Cert.Spec.projT (mat (V c main_v25)) (mat (V c main_v13)) (mat (V c main_v17)) (i 0) (i 1)) := by
  show (cfg0.win 9).cut (grid0.coords t) ((dat0 (F := Ideal) V c).after 9 t) = _
  rw [after0_9]
  unfold out0_9
  rw [View.canon_unit_zero proj_zeroOffsets]
  simp only [View.ld_unit_zero (S := S512x2048) proj_zeroOffsets, View.ld_unit_zero (S := S2048x64) proj_zeroOffsets,
    View.ld_unit_zero (S := S64x2048) proj_zeroOffsets]
  funext j
  show k0_pay4 (F := Ideal) (iblk0 V c 0 t) (iblk0 V c 3 t) (iblk0 V c 6 t) j
    = Cert.Spec.projT (mat (V c main_v25)) (mat (V c main_v13)) (mat (V c main_v17))
        (((cfg0.win 9).blk t).view.emb j 0) (((cfg0.win 9).blk t).view.emb j 1)
  refine (congrArg (k0_pay4 (F := Ideal) (iblk0 V c 0 t) (iblk0 V c 3 t) (iblk0 V c 6 t)) (eq_ix2 (n0 := 512) (n1 := 2048) j)).trans ?_
  refine r0_block_9 V c t (j 0) (j 1) _ _ ?_ ?_
  · show win0_9.index t (0 : Fin 2) * 512 + 1 * (j 0).val = _; rw [(r0_blockIndex_9 t).1]; omega
  · show win0_9.index t (1 : Fin 2) * 2048 + 1 * (j 1).val = _; rw [(r0_blockIndex_9 t).2]; omega

/-- An index of the array is in point `t`'s block iff each coordinate is in the block's range on its axis. -/
theorem r0_mem_blk_9 (t : Fin cfg0.N) (i : S4096x2048.Idx) :
    i ∈ ((cfg0.win 9).blk t).view.set ↔ ∀ a : Fin 2, win0_9.index t a * S512x2048.size a ≤ (i a).val ∧ (i a).val < win0_9.index t a * S512x2048.size a + S512x2048.size a := by
  show i ∈ ((View.whole main_v26_2).slice (win0_9.rect t)).set ↔ _
  rw [View.set_slice_whole, Rect.mem_set_unit]
  exact Iff.rfl

/-- Every index of the array is in some point's block: row `r` is in the block of point `r / 512`. -/
theorem r0_cover_9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  refine ⟨⟨(i 0).val / 512, by rw [show cfg0.N = 8 from N_0]; omega⟩, flush0_9 _, ?_⟩
  rw [r0_mem_blk_9]
  intro a
  match a with
  | ⟨0, _⟩ =>
    show win0_9.index _ (0 : Fin 2) * 512 ≤ (i 0).val ∧ (i 0).val < win0_9.index _ (0 : Fin 2) * 512 + 512
    rw [(r0_blockIndex_9 _).1]; dsimp only; omega
  | ⟨1, _⟩ =>
    show win0_9.index _ (1 : Fin 2) * 2048 ≤ (i 1).val ∧ (i 1).val < win0_9.index _ (1 : Fin 2) * 2048 + 2048
    rw [(r0_blockIndex_9 _).2]; omega

/-- Window 9's array after the region: the projection, entry by entry. -/
theorem final0_9 (c : Dev nD) : (dat0 (F := Ideal) V c).arrAt 9 cfg0.N
    = fun i : S4096x2048.Idx => Cert.Spec.projT (mat (V c main_v25)) (mat (V c main_v13)) (mat (V c main_v17)) (i 0) (i 1) :=
  (dat0 (F := Ideal) V c).arrAt_eq_of_cover 9 _ (fun t _ => r0_flushed_9_eq V c t) r0_cover_9

end Cert.KernelIdeal.Val
end
-- ==== Proof.AttnBlock.lean ====
/-
  One block of attention, index by index, on the extended reals.

  A block takes 512 query rows, 2048 key rows and 2048 value rows, each of 128 lanes. The score of query row p against
  key row j is the inner product of the two rows over the lanes, times the fixed scale. Each row of scores becomes a row
  of weights: the exponential of the score less the row's maximum, over the sum of those exponentials along the row.
  The output at row p and lane d is the sum over the key rows j of the weight of (p, j) times lane d of value row j.

  The steps: a product of two blocks read at an index is a sum over the contracted axis; a reduction along the rows read
  at a row is a fold or a sum over that row; a column `[a, 1]` read back over `[a, b]` gives each row its own entry.
-/
import proofs.«159476_j19301583029009_2_alg».proof.Proof.Gen.KernelIdeal.Skeleton
import proofs.«159476_j19301583029009_2_alg».proof.Proof.Spec
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe
open Idealize.ShloMosaic.ValueIdx

theorem qk_lhs0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem qk_lhs1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem qk_rhs0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem qk_rhs1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The product of a query block with the transposed key block, at row p and column j: the inner product of
    query row p and key row j over the 128 lanes. -/
theorem qk_apply (x0 : FVec Ideal S512x128 .bf16) (x1 : FVec Ideal S2048x128 .bf16) (p : Fin 512) (j : Fin 2048) :
    FloatOps.matmul dot_S512x128_S2048x128_S512x2048_1_1_0_0_n_n none x0 x1 (constant (F := Ideal) S512x2048 .f32 0x00000000#32) (ix2 p j)
      = ∑ e : Fin 128, x0 (ix2 p e) * x1 (ix2 j e) := by
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p j) ((ValueIdx.contrEquiv1 dot_S512x128_S2048x128_S512x2048_1_1_0_0_n_n 128 rfl rfl).symm k) = ix2 p k := funext fun a => Fin.ext (by
    match a with
    | ⟨0, _⟩ => exact qk_lhs0 _ _
    | ⟨1, _⟩ => exact (qk_lhs1 _ _).trans hk)
  have er : dot_S512x128_S2048x128_S512x2048_1_1_0_0_n_n.rhsIdx (ix2 p j) ((ValueIdx.contrEquiv1 dot_S512x128_S2048x128_S512x2048_1_1_0_0_n_n 128 rfl rfl).symm k) = ix2 j k := funext fun a => Fin.ext (by
    match a with
    | ⟨0, _⟩ => exact qk_rhs0 _ _
    | ⟨1, _⟩ => exact (qk_rhs1 _ _).trans hk)
  rw [el, er]

section Keepdims
variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- The index over row `p` with column `k` put back on the reduced axis. -/
theorem lift_row (p : Fin 512) (k : Fin 2048) : reduces_S512x2048_S512.lift (ix1 p) k = ix2 p k :=
  funext fun a => Fin.ext (by
    show reduces_S512x2048_S512.liftVal (ix1 p) k.val a = (ix2 p k a).val
    unfold Shape.Reduces.liftVal
    match a with
    | ⟨0, _⟩ => rfl
    | ⟨1, _⟩ => rfl)

/-- A maximum along the rows, at row `p`: the fold of `max` over the row from the pattern of −∞. -/
theorem rowMax_apply (src : FVec Ideal S512x2048 .f32) (p : Fin 512) :
    multiReduction (F := Ideal) .maximumf [1] S512 src 0xFF800000#32 reduces_S512x2048_S512 (.inl rfl) rfl (ix1 p)
      = (Finset.univ : Finset (Fin 2048)).fold max Cert.Spec.negInf (fun j => src (ix2 p j)) := by
  refine (Ideal.multiReduction_maximumf_single src _ reduces_S512x2048_S512 _ _ (ix1 p)).trans ?_
  refine congrArg (fun g => (Finset.univ : Finset (Fin 2048)).fold max Cert.Spec.negInf g) ?_
  funext j
  exact congrArg src (lift_row p j)

/-- A sum along the rows, at row `p`. -/
theorem rowSum_apply (src : FVec Ideal S512x2048 .f32) (p : Fin 512) :
    multiReduction (F := Ideal) .add [1] S512 src 0x00000000#32 reduces_S512x2048_S512 (.inl rfl) rfl (ix1 p)
      = ∑ j : Fin 2048, src (ix2 p j) := by
  refine (Ideal.multiReduction_add_single src _ reduces_S512x2048_S512 _ _ (ix1 p)).trans ?_
  exact Finset.sum_congr rfl fun j _ => congrArg src (lift_row p j)

theorem pv_lhs0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem pv_rhs0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem pv_rhs1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product of a block of weights with a value block, at row p and lane d: the weights of row p against
    lane d of the values, summed over the 2048 key positions. -/
theorem pv_apply (w : FVec Ideal S512x2048 .bf16) (x2 : FVec Ideal S2048x128 .bf16) (p : Fin 512) (d : Fin 128) :
    FloatOps.matmul dot_S512x2048_S2048x128_S512x128_1_0_0_1_n_n none w x2 (constant (F := Ideal) S512x128 .f32 0x00000000#32) (ix2 p d)
      = ∑ j : Fin 2048, w (ix2 p j) * x2 (ix2 j d) := by
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p d) ((ValueIdx.contrEquiv1 dot_S512x2048_S2048x128_S512x128_1_0_0_1_n_n 2048 rfl rfl).symm k) = ix2 p k := funext fun a => Fin.ext (by
    match a with
    | ⟨0, _⟩ => exact pv_lhs0 _ _
    | ⟨1, _⟩ => exact (pv_lhs1 _ _).trans hk)
  have er : dot_S512x2048_S2048x128_S512x128_1_0_0_1_n_n.rhsIdx (ix2 p d) ((ValueIdx.contrEquiv1 dot_S512x2048_S2048x128_S512x128_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The payload in four stages -/

/-- Stage 1: the scaled scores of a query block against a key block. -/
def scoresOf (x0 : Vec Ideal S512x128 .bf16) (x1 : Vec Ideal S2048x128 .bf16) : FVec Ideal S512x2048 .f32 :=
  mulf (matmul dot_S512x128_S2048x128_S512x2048_1_1_0_0_n_n none
      (shapeCast S512x128 x0 shapeCasts_S512x128_S512x128 : FVec Ideal S512x128 .bf16)
      (shapeCast S2048x128 x1 shapeCasts_S2048x128_S2048x128 : FVec Ideal S2048x128 .bf16)
      (constant S512x2048 .f32 0x00000000#32))
    (broadcast S512x2048 (Scalar.ofBits (F := Ideal) .f32 0x3DB504F3#32))

/-- Stage 2: every row's maximum, spread back over the row. -/
def rowMaxOf (s : FVec Ideal S512x2048 .f32) : FVec Ideal S512x2048 .f32 :=
  broadcastTo S512x2048 (shapeCast S512x1
      (multiReduction .maximumf [1] S512 s 0xFF800000#32 reduces_S512x2048_S512 (.inl rfl) rfl) shapeCasts_S512_S512x1)
    broadcasts_S512x1_S512x2048

/-- Stage 3: the exponentials of the scores less their row's maximum, over their row's sum. -/
def weightsOf (s : FVec Ideal S512x2048 .f32) : FVec Ideal S512x2048 .f32 :=
  divf (exp (subf s (rowMaxOf s)))
    (broadcastTo S512x2048 (shapeCast S512x1
        (multiReduction .add [1] S512 (exp (subf s (rowMaxOf s))) 0x00000000#32 reduces_S512x2048_S512 (.inl rfl) rfl) shapeCasts_S512_S512x1)
      broadcasts_S512x1_S512x2048)

/-- Stage 4: the weights against a value block. -/
def resultOf (w : FVec Ideal S512x2048 .f32) (x2 : Vec Ideal S2048x128 .bf16) : FVec Ideal S512x128 .bf16 :=
  truncf .bf16 (matmul dot_S512x2048_S2048x128_S512x128_1_0_0_1_n_n none (truncf .bf16 w bitsLt_bf16_f32)
      (shapeCast S2048x128 x2 shapeCasts_S2048x128_S2048x128 : FVec Ideal S2048x128 .bf16) (constant S512x128 .f32 0x00000000#32)) bitsLt_bf16_f32

/-- The body's payload is the four stages in turn. -/
theorem pay_stages (x0 : Vec Ideal S512x128 .bf16) (x1 x2 : Vec Ideal S2048x128 .bf16) :
    k1_pay1 (F := Ideal) x0 x1 x2 = resultOf (weightsOf (scoresOf x0 x1)) x2 := rfl

/-- The row of scores of query row p. -/
abbrev scoreRow (x0 : Vec Ideal S512x128 .bf16) (x1 : Vec Ideal S2048x128 .bf16) (p : Fin 512) : Fin 2048 → EReal :=
  fun j => (∑ e : Fin 128, x0 (ix2 p e) * x1 (ix2 j e)) * Cert.Spec.scale

theorem scoresOf_apply (x0 : Vec Ideal S512x128 .bf16) (x1 : Vec Ideal S2048x128 .bf16) (p : Fin 512) (j : Fin 2048) :
    scoresOf x0 x1 (ix2 p j) = scoreRow x0 x1 p j := by
  unfold scoresOf
  rw [shapeCast_self, shapeCast_self]
  refine (mulf_apply _ _ _).trans ?_
  exact congrArg (· * Cert.Spec.scale) (qk_apply x0 x1 p j)

theorem rowMaxOf_apply (s : FVec Ideal S512x2048 .f32) (p : Fin 512) (j : Fin 2048) :
    rowMaxOf s (ix2 p j) = Cert.Spec.rmax (fun j' => s (ix2 p j')) := by
  unfold rowMaxOf
  rw [broadcastTo_a1_ab_apply, shapeCast_a_a1_apply, rowMax_apply]
  rfl

theorem weightsOf_apply (s : FVec Ideal S512x2048 .f32) (p : Fin 512) (j : Fin 2048) :
    weightsOf s (ix2 p j) = Cert.Spec.smax (fun j' => s (ix2 p j')) j := by
  unfold weightsOf
  rw [divf_apply, broadcastTo_a1_ab_apply, shapeCast_a_a1_apply, rowSum_apply]
  show Ideal.div (Ideal.exp (s (ix2 p j) - rowMaxOf s (ix2 p j))) (∑ j' : Fin 2048, Ideal.exp (s (ix2 p j') - rowMaxOf s (ix2 p j'))) = _
  rw [rowMaxOf_apply]
  unfold Cert.Spec.smax
  refine congrArg (Ideal.div _) (Finset.sum_congr rfl fun j' _ => ?_)
  rw [rowMaxOf_apply]

theorem resultOf_apply (w : FVec Ideal S512x2048 .f32) (x2 : Vec Ideal S2048x128 .bf16) (p : Fin 512) (d : Fin 128) :
    resultOf w x2 (ix2 p d) = ∑ j : Fin 2048, w (ix2 p j) * x2 (ix2 j d) := by
  unfold resultOf
  rw [shapeCast_self]
  exact pv_apply (truncf .bf16 w bitsLt_bf16_f32) x2 p d

/-- THE PAYLOAD AT AN INDEX: at row p and lane d of the output block, the attention weights of the scores of
    query row p against the key block, times lane d of the value block, summed over the key positions. -/
theorem pay_apply (x0 : Vec Ideal S512x128 .bf16) (x1 x2 : Vec Ideal S2048x128 .bf16) (p : Fin 512) (d : Fin 128) :
    k1_pay1 (F := Ideal) x0 x1 x2 (ix2 p d)
      = ∑ j : Fin 2048, Cert.Spec.smax (scoreRow x0 x1 p) j * x2 (ix2 j d) := by
  rw [pay_stages, resultOf_apply]
  refine Finset.sum_congr rfl fun j _ => congrArg (· * x2 (ix2 j d)) ?_
  rw [weightsOf_apply]
  exact congrArg (fun f => Cert.Spec.smax f j) (funext fun j' => scoresOf_apply x0 x1 p j')

/-- The same, with the row of scores written out. -/
theorem attn_pay (x0 : Vec Ideal S512x128 .bf16) (x1 x2 : Vec Ideal S2048x128 .bf16) (p : Fin 512) (d : Fin 128) :
    k1_pay1 (F := Ideal) x0 x1 x2 (ValueIdx.ix2 p d)
      = ∑ j : Fin 2048, Cert.Spec.smax (fun j' : Fin 2048 => (∑ e : Fin 128, x0 (ValueIdx.ix2 p e) * x1 (ValueIdx.ix2 j' e)) * Cert.Spec.scale) j * x2 (ValueIdx.ix2 j d) :=
  pay_apply x0 x1 x2 p d

end Cert.KernelIdeal.Val
end
-- ==== Proof.Region1.lean ====
/-
  The attention region: from blocks to the array.

  The grid's points are the triples (b, h, qi). At a point the output block and the query block are the 512 rows
  `(b · 4 + qi) · 512 + p` and the 128 columns `h · 128 + d` of their arrays; the key and the value blocks are the 2048
  rows `b · 2048 + j` and the same 128 columns of theirs. Since `(b · 4 + qi) · 512 + p = b · 2048 + (qi · 512 + p)`,
  local row `p` of the query block is position `s = qi · 512 + p` of batch `b`, and the payload at local `(p, d)` —
  the weights of the scores of that row against the 2048 key rows, times lane `d` of the value rows, summed — is the
  attention output at row (b, s) and column (h, d). The output blocks tile the array (row `r`, column `c` lies in
  the block at block index `(r / 512, c / 128)`), so the array ends holding the attention output everywhere.
-/
import proofs.«159476_j19301583029009_2_alg».proof.Proof.Gen.KernelIdeal.Frame
import proofs.«159476_j19301583029009_2_alg».proof.Proof.Spec
import proofs.«159476_j19301583029009_2_alg».proof.Proof.AttnBlock
import Idealize.ShloMosaic.Lib.Pipeline.Value
import Idealize.ShloMosaic.PureOps.Ideal.Laws

noncomputable section
namespace Cert.KernelIdeal.Val
open Cert.KernelIdeal Cert.KernelIdeal.Gen Idealize.ShloMosaic Idealize.ShloMosaic.TcCoe Idealize.SL.Sem
open Idealize.ShloMosaic.Pipeline (Dat)
open Cert.Spec (mat mat3 rowOf colOf attn score smax scale)
open ValueIdx (ix2)

/-! ## The index maps over the grid -/

theorem r1_hz : (![0, 0] : Fin 2 → Nat) = fun _ => 0 := funext fun a => by fin_cases a <;> rfl

/-- At every point (b, h, qi) of the grid the output block and the query block sit at block index (b · 4 + qi, h), the
    key and the value blocks at (b, h); the first index is below 8 and the second below 16. -/
theorem r1_idx_rel : ∀ t : Fin cfg1.N,
    win1_3.index t (0 : Fin 2) = win1_0.index t (0 : Fin 2)
    ∧ win1_3.index t (1 : Fin 2) = win1_0.index t (1 : Fin 2)
    ∧ win1_1.index t (0 : Fin 2) = win1_0.index t (0 : Fin 2) / 4
    ∧ win1_1.index t (1 : Fin 2) = win1_0.index t (1 : Fin 2)
    ∧ win1_2.index t (0 : Fin 2) = win1_0.index t (0 : Fin 2) / 4
    ∧ win1_2.index t (1 : Fin 2) = win1_0.index t (1 : Fin 2)
    ∧ win1_0.index t (0 : Fin 2) < 8
    ∧ win1_0.index t (1 : Fin 2) < 16 :=
  (by decide +kernel : ∀ t : Fin grid1.N, _)

/-- Every block of the output array is some point's. -/
theorem r1_idx_onto : ∀ (q0 : Fin 8) (q1 : Fin 16), ∃ t : Fin cfg1.N, win1_3.index t = ![q0.val, q1.val] :=
  (by decide +kernel : ∀ (q0 : Fin 8) (q1 : Fin 16), ∃ t : Fin grid1.N, win1_3.index t = ![q0.val, q1.val])

/-! ## The attention output at a row (batch, position) and a column (head, lane) -/

theorem r1_attn_at (q k v : Fin 4096 → Fin 2048 → EReal) (B : Fin 2) (H : Fin 16) (s : Fin 2048) (d : Fin 128) :
    attn q k v (rowOf B s) (colOf H d) = ∑ j : Fin 2048, smax (score q k B H s) j * v (rowOf B j) (colOf H d) := by
  unfold attn
  rw [Cert.Spec.bOf_rowOf, Cert.Spec.sOf_rowOf, Cert.Spec.hOf_colOf, Cert.Spec.dOf_colOf]

variable (V : (c : Dev nD) → (b : Ref sig .tc) → Buf (Elt Ideal) ((c : Thread nD τ).loc b))

/-! ## The blocks read off their arrays -/

/-- The query block of a point whose rows start at row `B · 2048 + s − p`: local (p, e) is row (B, s), column (H, e). -/
theorem r1_q_blk (c : Dev nD) (t : Fin cfg1.N) (B : Fin 2) (H : Fin 16) (s : Fin 2048) (p : Fin 512) (e : Fin 128)
    (hr : win1_0.index t (0 : Fin 2) * 512 + p.val = B.val * 2048 + s.val) (hc : win1_0.index t (1 : Fin 2) = H.val) :
    (iblk1 V c 0 t : S512x128.Idx → EReal) (ix2 p e) = mat (V c main_v26_0) (rowOf B s) (colOf H e) := by
  show V c main_v26_0 (((cfg1.win 0).blk t).view.emb (ix2 p e)) = V c main_v26_0 (ix2 (rowOf B s) (colOf H e))
  refine congrArg _ (funext fun a => Fin.ext ?_)
  match a with
  | ⟨0, _⟩ => show win1_0.index t (0 : Fin 2) * 512 + 1 * p.val = B.val * 2048 + s.val; omega
  | ⟨1, _⟩ => show win1_0.index t (1 : Fin 2) * 128 + 1 * e.val = H.val * 128 + e.val; omega

/-- The key block at block index (B, H): local (j, e) is row (B, j), column (H, e). -/
theorem r1_k_blk (c : Dev nD) (t : Fin cfg1.N) (B : Fin 2) (H : Fin 16) (j : Fin 2048) (e : Fin 128)
    (hr : win1_1.index t (0 : Fin 2) = B.val) (hc : win1_1.index t (1 : Fin 2) = H.val) :
    (iblk1 V c 1 t : S2048x128.Idx → EReal) (ix2 j e) = mat (V c main_v26_1) (rowOf B j) (colOf H e) := by
  show V c main_v26_1 (((cfg1.win 1).blk t).view.emb (ix2 j e)) = V c main_v26_1 (ix2 (rowOf B j) (colOf H e))
  refine congrArg _ (funext fun a => Fin.ext ?_)
  match a with
  | ⟨0, _⟩ => show win1_1.index t (0 : Fin 2) * 2048 + 1 * j.val = B.val * 2048 + j.val; omega
  | ⟨1, _⟩ => show win1_1.index t (1 : Fin 2) * 128 + 1 * e.val = H.val * 128 + e.val; omega

/-- The value block at block index (B, H): local (j, e) is row (B, j), column (H, e). -/
theorem r1_v_blk (c : Dev nD) (t : Fin cfg1.N) (B : Fin 2) (H : Fin 16) (j : Fin 2048) (e : Fin 128)
    (hr : win1_2.index t (0 : Fin 2) = B.val) (hc : win1_2.index t (1 : Fin 2) = H.val) :
    (iblk1 V c 2 t : S2048x128.Idx → EReal) (ix2 j e) = mat (V c main_v26_2) (rowOf B j) (colOf H e) := by
  show V c main_v26_2 (((cfg1.win 2).blk t).view.emb (ix2 j e)) = V c main_v26_2 (ix2 (rowOf B j) (colOf H e))
  refine congrArg _ (funext fun a => Fin.ext ?_)
  match a with
  | ⟨0, _⟩ => show win1_2.index t (0 : Fin 2) * 2048 + 1 * j.val = B.val * 2048 + j.val; omega
  | ⟨1, _⟩ => show win1_2.index t (1 : Fin 2) * 128 + 1 * e.val = H.val * 128 + e.val; omega

/-- If the three blocks are the rows (B, ·) and the columns (H, ·) of three matrices — the query block from row
    (B, s) at local row p — the payload at local (p, d) is the attention output at row (B, s), column (H, d). -/
theorem r1_pay_of (x0 : Vec Ideal S512x128 .bf16) (x1 x2 : Vec Ideal S2048x128 .bf16) (q k v : Fin 4096 → Fin 2048 → EReal)
    (B : Fin 2) (H : Fin 16) (s : Fin 2048) (p : Fin 512) (d : Fin 128)
    (hq : ∀ e : Fin 128, x0 (ix2 p e) = q (rowOf B s) (colOf H e))
    (hk : ∀ (j : Fin 2048) (e : Fin 128), x1 (ix2 j e) = k (rowOf B j) (colOf H e))
    (hv : ∀ j : Fin 2048, x2 (ix2 j d) = v (rowOf B j) (colOf H d)) :
    k1_pay1 (F := Ideal) x0 x1 x2 (ix2 p d) = attn q k v (rowOf B s) (colOf H d) := by
  rw [r1_attn_at]
  refine (attn_pay x0 x1 x2 p d).trans ?_
  have hs : (fun j' : Fin 2048 => (∑ e : Fin 128, x0 (ix2 p e) * x1 (ix2 j' e)) * scale) = score q k B H s := by
    funext j'
    unfold score
    refine congrArg (· * scale) (Finset.sum_congr rfl fun e _ => ?_)
    rw [hq e, hk j' e]
  refine Finset.sum_congr rfl fun j _ => ?_
  rw [hv j]
  exact congrArg (fun f => smax f j * v (rowOf B j) (colOf H d)) hs

/-- The payload of the three blocks of a point at local (p, d) is the attention output at row (B, s), column (H, d). -/
theorem r1_pay_at (c : Dev nD) (t : Fin cfg1.N) (B : Fin 2) (H : Fin 16) (s : Fin 2048) (p : Fin 512) (d : Fin 128)
    (h0r : win1_0.index t (0 : Fin 2) * 512 + p.val = B.val * 2048 + s.val) (h0c : win1_0.index t (1 : Fin 2) = H.val)
    (h1r : win1_1.index t (0 : Fin 2) = B.val) (h1c : win1_1.index t (1 : Fin 2) = H.val)
    (h2r : win1_2.index t (0 : Fin 2) = B.val) (h2c : win1_2.index t (1 : Fin 2) = H.val) :
    k1_pay1 (F := Ideal) (iblk1 V c 0 t) (iblk1 V c 1 t) (iblk1 V c 2 t) (ix2 p d)
      = attn (mat (V c main_v26_0)) (mat (V c main_v26_1)) (mat (V c main_v26_2)) (rowOf B s) (colOf H d) :=
  r1_pay_of _ _ _ _ _ _ B H s p d (fun e => r1_q_blk V c t B H s p e h0r h0c)
    (fun j e => r1_k_blk V c t B H j e h1r h1c) (fun j => r1_v_blk V c t B H j d h2r h2c)

/-! ## What each point writes back, and the whole array -/

/-- Point `t` writes back block `t` of the attention output of the three arrays as the region finds them. -/
theorem r1_flushed_eq (c : Dev nD) (t : Fin cfg1.N) :
    (dat1 (F := Ideal) V c).flushed 3 t = ((cfg1.win 3).blk t).view.read (Elt Ideal)
      (fun i : S4096x2048.Idx => attn (mat (V c main_v26_0)) (mat (V c main_v26_1)) (mat (V c main_v26_2)) (i 0) (i 1)) := by
  show (cfg1.win 3).cut (grid1.coords t) ((dat1 (F := Ideal) V c).after 3 t) = _
  rw [after1_3]
  unfold out1_3
  rw [View.canon_unit_zero r1_hz]
  simp only [View.ld_unit_zero (S := S512x128) r1_hz, View.ld_unit_zero (S := S2048x128) r1_hz]
  obtain ⟨e30, e31, e10, e11, e20, e21, l0, l1⟩ := r1_idx_rel t
  funext y
  have hp : (y 0).val < 512 := (y 0).isLt
  have hd : (y 1).val < 128 := (y 1).isLt
  have hy : y = ix2 (⟨(y 0).val, hp⟩ : Fin 512) (⟨(y 1).val, hd⟩ : Fin 128) := by
    funext a; match a with | ⟨0, _⟩ => rfl | ⟨1, _⟩ => rfl
  have key := r1_pay_at V c t ⟨win1_0.index t (0 : Fin 2) / 4, by omega⟩ ⟨win1_0.index t (1 : Fin 2), l1⟩
    ⟨win1_0.index t (0 : Fin 2) % 4 * 512 + (y 0).val, by omega⟩ ⟨(y 0).val, hp⟩ ⟨(y 1).val, hd⟩
    (by show win1_0.index t (0 : Fin 2) * 512 + (y 0).val = win1_0.index t (0 : Fin 2) / 4 * 2048 + (win1_0.index t (0 : Fin 2) % 4 * 512 + (y 0).val); omega)
    rfl e10 e11 e20 e21
  show k1_pay1 (F := Ideal) (iblk1 V c 0 t) (iblk1 V c 1 t) (iblk1 V c 2 t) y
      = attn (mat (V c main_v26_0)) (mat (V c main_v26_1)) (mat (V c main_v26_2))
          ((((cfg1.win 3).blk t).view.emb y) 0) ((((cfg1.win 3).blk t).view.emb y) 1)
  refine ((congrArg (k1_pay1 (F := Ideal) (iblk1 V c 0 t) (iblk1 V c 1 t) (iblk1 V c 2 t)) hy).trans key).trans ?_
  have r0 : rowOf ⟨win1_0.index t (0 : Fin 2) / 4, by omega⟩ ⟨win1_0.index t (0 : Fin 2) % 4 * 512 + (y 0).val, by omega⟩
      = (((cfg1.win 3).blk t).view.emb y) 0 := Fin.ext (by
    show win1_0.index t (0 : Fin 2) / 4 * 2048 + (win1_0.index t (0 : Fin 2) % 4 * 512 + (y 0).val) = win1_3.index t (0 : Fin 2) * 512 + 1 * (y 0).val
    omega)
  have r1 : colOf ⟨win1_0.index t (1 : Fin 2), l1⟩ ⟨(y 1).val, hd⟩ = (((cfg1.win 3).blk t).view.emb y) 1 := Fin.ext (by
    show win1_0.index t (1 : Fin 2) * 128 + (y 1).val = win1_3.index t (1 : Fin 2) * 128 + 1 * (y 1).val
    omega)
  rw [r0, r1]

/-- An index of the array is in point `t`'s block iff each coordinate is in the block's range on its axis. -/
theorem r1_mem_blk (t : Fin cfg1.N) (i : S4096x2048.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v27).slice (win1_3.rect t)).set ↔ _
  rw [View.set_slice_whole, Rect.mem_set_unit]
  exact Iff.rfl

/-- The blocks tile the array: index (r, c) is in the block at block index (r / 512, c / 128). -/
theorem r1_cover (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, ht⟩ := r1_idx_onto ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [r1_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- The output array after the region: the attention output of the three arrays at its entry. -/
theorem final1_3 (c : Dev nD) : (dat1 (F := Ideal) V c).arrAt 3 cfg1.N
    = fun i : S4096x2048.Idx => Cert.Spec.attn (mat (V c main_v26_0)) (mat (V c main_v26_1)) (mat (V c main_v26_2)) (i 0) (i 1) :=
  (dat1 (F := Ideal) V c).arrAt_eq_of_cover 3 _ (fun t _ => r1_flushed_eq V c t) r1_cover

end Cert.KernelIdeal.Val
end
-- ==== Proof.Region2.lean ====
/-
  The last region: the output projection.

  The grid has 8 points; point `t` stages rows `512 t … 512 t + 511` of the attention output and the two parameter
  matrices whole, and writes back rows `512 t … 512 t + 511` of the result (kept in single precision). Each block is
  the factored projection of the staged row block, so the array ends as the projection of the whole input, entry by
  entry: the eight row blocks tile the 4096 rows.
-/
import proofs.«159476_j19301583029009_2_alg».proof.Proof.ProjBlock

noncomputable section
namespace Cert.KernelIdeal.Val
open Cert.KernelIdeal Cert.KernelIdeal.Gen Idealize.ShloMosaic Idealize.ShloMosaic.TcCoe Idealize.SL.Sem
open Idealize.ShloMosaic.Pipeline (Dat)
open Cert.Spec (mat mat3)
open ValueIdx

variable (V : (c : Dev nD) → (b : Ref sig .tc) → Buf (Elt Ideal) ((c : Thread nD τ).loc b))

/-! ## The printed index maps over the grid -/

/-- Window 0's block index at point `t` is `(t, 0)`: row block `t`, all columns. -/
theorem r2_blockIndex_0 : ∀ t : Fin cfg2.N, win2_0.index t (0 : Fin 2) = t.val ∧ win2_0.index t (1 : Fin 2) = 0 :=
  (by decide +kernel : ∀ t : Fin grid2.N, _)
/-- Window 3's block index at point `t` is `(t, 0)`: row block `t`, all columns. -/
theorem r2_blockIndex_3 : ∀ t : Fin cfg2.N, win2_3.index t (0 : Fin 2) = t.val ∧ win2_3.index t (1 : Fin 2) = 0 :=
  (by decide +kernel : ∀ t : Fin grid2.N, _)
/-- Window 1's block index is `(0, 0)` at every point: the whole array. -/
theorem r2_blockIndex_1 : ∀ t : Fin cfg2.N, win2_1.index t (0 : Fin 2) = 0 ∧ win2_1.index t (1 : Fin 2) = 0 :=
  (by decide +kernel : ∀ t : Fin grid2.N, _)
/-- Window 2's block index is `(0, 0)` at every point: the whole array. -/
theorem r2_blockIndex_2 : ∀ t : Fin cfg2.N, win2_2.index t (0 : Fin 2) = 0 ∧ win2_2.index t (1 : Fin 2) = 0 :=
  (by decide +kernel : ∀ t : Fin grid2.N, _)

/-! ## The input windows' blocks as entries of their arrays -/

/-- The row window's block at point `t` is rows `512 t … 512 t + 511` of its array. -/
theorem r2_rows_apply (c : Dev nD) (t : Fin cfg2.N) (p : Fin 512) (d : Fin 2048) (r : Fin 4096)
    (hr : r.val = t.val * 512 + p.val) :
    (iblk2 (F := Ideal) V c 0 t : Vec Ideal S512x2048 .bf16) (ix2 p d) = mat (V c main_v27) r d := by
  unfold iblk2
  rw [View.read_apply]
  show V c main_v27 _ = V c main_v27 _
  congr 1
  funext a
  apply Fin.ext
  match a with
  | ⟨0, _⟩ => show win2_0.index t (0 : Fin 2) * 512 + 1 * p.val = r.val; rw [(r2_blockIndex_0 t).1, hr]; omega
  | ⟨1, _⟩ => show win2_0.index t (1 : Fin 2) * 2048 + 1 * d.val = d.val; rw [(r2_blockIndex_0 t).2]; omega

/-- Window 1's block is its whole 2048 × 64 array at every point. -/
theorem r2_basis_1_apply (c : Dev nD) (t : Fin cfg2.N) (d : Fin 2048) (h : Fin 64) :
    (iblk2 (F := Ideal) V c 1 t : Vec Ideal S2048x64 .bf16) (ix2 d h) = mat (V c main_v19) d h := by
  unfold iblk2
  rw [View.read_apply]
  show V c main_v19 _ = V c main_v19 _
  congr 1
  funext a
  apply Fin.ext
  match a with
  | ⟨0, _⟩ => show win2_1.index t (0 : Fin 2) * 2048 + 1 * d.val = d.val; rw [(r2_blockIndex_1 t).1]; omega
  | ⟨1, _⟩ => show win2_1.index t (1 : Fin 2) * 64 + 1 * h.val = h.val; rw [(r2_blockIndex_1 t).2]; omega

/-- Window 2's block is its whole 64 × 2048 array at every point. -/
theorem r2_weights_2_apply (c : Dev nD) (t : Fin cfg2.N) (h : Fin 64) (q : Fin 2048) :
    (iblk2 (F := Ideal) V c 2 t : Vec Ideal S64x2048 .bf16) (ix2 h q) = mat (V c main_v23) h q := by
  unfold iblk2
  rw [View.read_apply]
  show V c main_v23 _ = V c main_v23 _
  congr 1
  funext a
  apply Fin.ext
  match a with
  | ⟨0, _⟩ => show win2_2.index t (0 : Fin 2) * 64 + 1 * h.val = h.val; rw [(r2_blockIndex_2 t).1]; omega
  | ⟨1, _⟩ => show win2_2.index t (1 : Fin 2) * 2048 + 1 * q.val = q.val; rw [(r2_blockIndex_2 t).2]; omega

/-! ## Output window 3 -/

/-- The body's result for window 3 at point `t`, at row `p`, column `q` of the block: the projection's entry at row
    `512 t + p`. -/
theorem r2_block_3 (c : Dev nD) (t : Fin cfg2.N) (p : Fin 512) (q : Fin 2048) (r : Fin 4096) (q' : Fin 2048)
    (hr : r.val = t.val * 512 + p.val) (hq : q'.val = q.val) :
    k2_pay1 (F := Ideal) (iblk2 V c 0 t) (iblk2 V c 1 t) (iblk2 V c 2 t) (ix2 p q)
      = Cert.Spec.projT (mat (V c main_v27)) (mat (V c main_v19)) (mat (V c main_v23)) r q' := by
  rw [show q' = q from Fin.ext hq]
  refine (proj_k2_pay1_apply (iblk2 V c 0 t) (iblk2 V c 1 t) (iblk2 V c 2 t) p q).trans ?_
  unfold proj_blk Cert.Spec.projT
  refine Finset.sum_congr rfl fun h _ => ?_
  exact congrArg₂ (· * ·)
    (Finset.sum_congr rfl fun d _ => congrArg₂ (· * ·) (r2_rows_apply V c t p d r hr) (r2_basis_1_apply V c t d h))
    (r2_weights_2_apply V c t h q)

/-- What point `t` writes back to window 3's array is block `t` of the projection. -/
theorem r2_flushed_3_eq (c : Dev nD) (t : Fin cfg2.N) :
    (dat2 (F := Ideal) V c).flushed 3 t = ((cfg2.win 3).blk t).view.read (Elt Ideal)
      (fun i : S4096x2048.Idx => Cert.Spec.projT (mat (V c main_v27)) (mat (V c main_v19)) (mat (V c main_v23)) (i 0) (i 1)) := by
  show (cfg2.win 3).cut (grid2.coords t) ((dat2 (F := Ideal) V c).after 3 t) = _
  rw [after2_3]
  unfold out2_3
  rw [View.canon_unit_zero proj_zeroOffsets]
  simp only [View.ld_unit_zero (S := S512x2048) proj_zeroOffsets, View.ld_unit_zero (S := S2048x64) proj_zeroOffsets,
    View.ld_unit_zero (S := S64x2048) proj_zeroOffsets]
  funext j
  show k2_pay1 (F := Ideal) (iblk2 V c 0 t) (iblk2 V c 1 t) (iblk2 V c 2 t) j
    = Cert.Spec.projT (mat (V c main_v27)) (mat (V c main_v19)) (mat (V c main_v23))
        (((cfg2.win 3).blk t).view.emb j 0) (((cfg2.win 3).blk t).view.emb j 1)
  refine (congrArg (k2_pay1 (F := Ideal) (iblk2 V c 0 t) (iblk2 V c 1 t) (iblk2 V c 2 t)) (eq_ix2 (n0 := 512) (n1 := 2048) j)).trans ?_
  refine r2_block_3 V c t (j 0) (j 1) _ _ ?_ ?_
  · show win2_3.index t (0 : Fin 2) * 512 + 1 * (j 0).val = _; rw [(r2_blockIndex_3 t).1]; omega
  · show win2_3.index t (1 : Fin 2) * 2048 + 1 * (j 1).val = _; rw [(r2_blockIndex_3 t).2]; omega

/-- An index of the array is in point `t`'s block iff each coordinate is in the block's range on its axis. -/
theorem r2_mem_blk_3 (t : Fin cfg2.N) (i : S4096x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v28).slice (win2_3.rect t)).set ↔ _
  rw [View.set_slice_whole, Rect.mem_set_unit]
  exact Iff.rfl

/-- Every index of the array is in some point's block: row `r` is in the block of point `r / 512`. -/
theorem r2_cover_3 (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  refine ⟨⟨(i 0).val / 512, by rw [show cfg2.N = 8 from N_2]; omega⟩, flush2_3 _, ?_⟩
  rw [r2_mem_blk_3]
  intro a
  match a with
  | ⟨0, _⟩ =>
    show win2_3.index _ (0 : Fin 2) * 512 ≤ (i 0).val ∧ (i 0).val < win2_3.index _ (0 : Fin 2) * 512 + 512
    rw [(r2_blockIndex_3 _).1]; dsimp only; omega
  | ⟨1, _⟩ =>
    show win2_3.index _ (1 : Fin 2) * 2048 ≤ (i 1).val ∧ (i 1).val < win2_3.index _ (1 : Fin 2) * 2048 + 2048
    rw [(r2_blockIndex_3 _).2]; omega

/-- Window 3's array after the region: the projection, entry by entry. -/
theorem final2_3 (c : Dev nD) : (dat2 (F := Ideal) V c).arrAt 3 cfg2.N
    = fun i : S4096x2048.Idx => Cert.Spec.projT (mat (V c main_v27)) (mat (V c main_v19)) (mat (V c main_v23)) (i 0) (i 1) :=
  (dat2 (F := Ideal) V c).arrAt_eq_of_cover 3 _ (fun t _ => r2_flushed_3_eq V c t) r2_cover_3

end Cert.KernelIdeal.Val
end
-- ==== Proof.HostGlue.lean ====
/-
  The operations around the three regions, read as matrices.

  Before the first region every basis array is transposed, every pair (amplitude, phase) is turned into
  `amplitude · cos phase` and transposed, and the input's two leading axes are merged; each result is then converted,
  which on the extended reals changes nothing. After the last region the flattened result is split back into batches.
  Each staged array is first written as the term its operations compute from the launch contents, and that term is
  then read at an index: a transposition swaps the two coordinates, and merging (or splitting) the leading axes keeps
  the row-major position, so that row `b · 2048 + s` of the flat array is position `s` of batch `b`.
-/
import proofs.«159476_j19301583029009_2_alg».proof.Proof.Gen.KernelIdeal.Frame
import proofs.«159476_j19301583029009_2_alg».proof.Proof.Spec
import Idealize.ShloMosaic.Lib.StableHlo.Run
import Idealize.ShloMosaic.Lib.Pipeline.Value
import Idealize.ShloMosaic.Lib.ValueIdx

noncomputable section

namespace Cert.KernelIdeal.Val
open Cert.KernelIdeal Cert.KernelIdeal.Gen Idealize.ShloMosaic Idealize.ShloMosaic.TcCoe Idealize.SL.Sem
open Cert.Spec (mat mat3 rowOf)

/-! ## The four shapes of term, read at an index -/

/-- A transposed, converted array read as a matrix is the transposed matrix. -/
theorem tr_read (x : S64x2048.Idx → EReal) :
    mat (truncf (F := Ideal) .bf16 (transpose S2048x64 [1, 0] x transposes_S64x2048_S2048x64_1_0) bitsLt_bf16_f32 : S2048x64.Idx → EReal)
      = Cert.Spec.tr (mat x) := by
  funext r q
  show transpose S2048x64 [1, 0] x transposes_S64x2048_S2048x64_1_0 (ValueIdx.ix2 r q) = x (ValueIdx.ix2 q r)
  exact transpose_apply _ _ _ (ValueIdx.ix2 r q) (ValueIdx.ix2 q r) (by
    intro b
    match b with
    | ⟨0, _⟩ => rfl
    | ⟨1, _⟩ => rfl)

/-- The amplitudes times the cosines of the phases, transposed and converted, read as a matrix: entry `(h, o)` is
    `amp o h · cos (phase o h)`. -/
theorem wgt_read (a p : S2048x64.Idx → EReal) :
    mat (truncf (F := Ideal) .bf16 (transpose S64x2048 [1, 0]
        (mulf (F := Ideal) (φ := .f32) a (Host.cos (F := Ideal) (φ := .f32) p)) transposes_S2048x64_S64x2048_1_0) bitsLt_bf16_f32 : S64x2048.Idx → EReal)
      = Cert.Spec.wgt (mat a) (mat p) := by
  funext h o
  show transpose S64x2048 [1, 0] (mulf (F := Ideal) (φ := .f32) a (Host.cos (F := Ideal) (φ := .f32) p)) transposes_S2048x64_S64x2048_1_0 (ValueIdx.ix2 h o)
      = a (ValueIdx.ix2 o h) * Ideal.cos (p (ValueIdx.ix2 o h))
  exact transpose_apply _ _ _ (ValueIdx.ix2 h o) (ValueIdx.ix2 o h) (by
    intro b
    match b with
    | ⟨0, _⟩ => rfl
    | ⟨1, _⟩ => rfl)

/-- The input with its two leading axes merged, converted, read as a matrix: row `r` is position `r % 2048` of
    batch `r / 2048`, since `(r / 2048) · 2048 + r % 2048 = r`. -/
theorem flat_read (x : S2x2048x2048.Idx → EReal) :
    mat (truncf (F := Ideal) .bf16 (shapeCast S4096x2048 x shapeCasts_S2x2048x2048_S4096x2048) bitsLt_bf16_f32 : S4096x2048.Idx → EReal)
      = mat3 x := by
  funext r q
  show shapeCast S4096x2048 x shapeCasts_S2x2048x2048_S4096x2048 (ValueIdx.ix2 r q)
      = x (ValueIdx.ix3 (Cert.Spec.bOf r) (Cert.Spec.sOf r) q)
  exact shapeCast_apply _ _ (ValueIdx.ix2 r q) (ValueIdx.ix3 (Cert.Spec.bOf r) (Cert.Spec.sOf r) q) (by
    rw [Shape.rowMajor_val_three, Shape.rowMajor_val_two]
    show ((r.val / 2048) * 2048 + r.val % 2048) * 2048 + q.val = r.val * 2048 + q.val
    omega)

/-- The flattened result split back into batches: entry `(b, s, d)` is entry `(b · 2048 + s, d)` of the flat array. -/
theorem unflat_read (y : S4096x2048.Idx → EReal) :
    shapeCast S2x2048x2048 y shapeCasts_S4096x2048_S2x2048x2048
      = fun i : S2x2048x2048.Idx => mat y (rowOf (i 0) (i 1)) (i 2) := by
  funext i
  exact shapeCast_apply _ _ i (ValueIdx.ix2 (rowOf (i 0) (i 1)) (i 2)) (by
    rw [Shape.rowMajor_val_three, Shape.rowMajor_val_two]
    rfl)

variable (m : (ℓ : Loc nD τ sig) → Buf (Elt Ideal) ℓ) (ρ : Dev nD → PrngReg)

/-! ## The input -/

theorem V1_v25_term (c : Dev nD) : (V1 m ρ c main_v25 : S4096x2048.Idx → EReal)
    = truncf (F := Ideal) .bf16 (shapeCast S4096x2048 (m ((c : Thread nD τ).loc main_arg0) : S2x2048x2048.Idx → EReal) shapeCasts_S2x2048x2048_S4096x2048) bitsLt_bf16_f32 := by
  show StableHlo.after hostOps0 (W0 m ρ c) (Proc.devRef .tc main_v25) = _
  after_results
  rfl

theorem V1_v25 (c : Dev nD) : mat (V1 m ρ c main_v25) = mat3 (m ((c : Thread nD τ).loc main_arg0)) := by
  rw [V1_v25_term m ρ c]; exact flat_read _

/-! ## The four bases, transposed -/

theorem V1_v1_term (c : Dev nD) : (V1 m ρ c main_v1 : S2048x64.Idx → EReal)
    = truncf (F := Ideal) .bf16 (transpose S2048x64 [1, 0] (m ((c : Thread nD τ).loc main_arg1) : S64x2048.Idx → EReal) transposes_S64x2048_S2048x64_1_0) bitsLt_bf16_f32 := by
  show StableHlo.after hostOps0 (W0 m ρ c) (Proc.devRef .tc main_v1) = _
  after_results

theorem V1_v1 (c : Dev nD) : mat (V1 m ρ c main_v1) = Cert.Spec.tr (mat (m ((c : Thread nD τ).loc main_arg1))) := by
  rw [V1_v1_term m ρ c]; exact tr_read _

theorem V1_v7_term (c : Dev nD) : (V1 m ρ c main_v7 : S2048x64.Idx → EReal)
    = truncf (F := Ideal) .bf16 (transpose S2048x64 [1, 0] (m ((c : Thread nD τ).loc main_arg4) : S64x2048.Idx → EReal) transposes_S64x2048_S2048x64_1_0) bitsLt_bf16_f32 := by
  show StableHlo.after hostOps0 (W0 m ρ c) (Proc.devRef .tc main_v7) = _
  after_results

theorem V1_v7 (c : Dev nD) : mat (V1 m ρ c main_v7) = Cert.Spec.tr (mat (m ((c : Thread nD τ).loc main_arg4))) := by
  rw [V1_v7_term m ρ c]; exact tr_read _

theorem V1_v13_term (c : Dev nD) : (V1 m ρ c main_v13 : S2048x64.Idx → EReal)
    = truncf (F := Ideal) .bf16 (transpose S2048x64 [1, 0] (m ((c : Thread nD τ).loc main_arg7) : S64x2048.Idx → EReal) transposes_S64x2048_S2048x64_1_0) bitsLt_bf16_f32 := by
  show StableHlo.after hostOps0 (W0 m ρ c) (Proc.devRef .tc main_v13) = _
  after_results

theorem V1_v13 (c : Dev nD) : mat (V1 m ρ c main_v13) = Cert.Spec.tr (mat (m ((c : Thread nD τ).loc main_arg7))) := by
  rw [V1_v13_term m ρ c]; exact tr_read _

theorem V1_v19_term (c : Dev nD) : (V1 m ρ c main_v19 : S2048x64.Idx → EReal)
    = truncf (F := Ideal) .bf16 (transpose S2048x64 [1, 0] (m ((c : Thread nD τ).loc main_arg10) : S64x2048.Idx → EReal) transposes_S64x2048_S2048x64_1_0) bitsLt_bf16_f32 := by
  show StableHlo.after hostOps0 (W0 m ρ c) (Proc.devRef .tc main_v19) = _
  after_results

theorem V1_v19 (c : Dev nD) : mat (V1 m ρ c main_v19) = Cert.Spec.tr (mat (m ((c : Thread nD τ).loc main_arg10))) := by
  rw [V1_v19_term m ρ c]; exact tr_read _

/-! ## The four modulation weights -/

theorem V1_v5_term (c : Dev nD) : (V1 m ρ c main_v5 : S64x2048.Idx → EReal)
    = truncf (F := Ideal) .bf16 (transpose S64x2048 [1, 0]
        (mulf (m ((c : Thread nD τ).loc main_arg3) : S2048x64.Idx → EReal) (Host.cos (F := Ideal) (m ((c : Thread nD τ).loc main_arg2) : S2048x64.Idx → EReal)))
        transposes_S2048x64_S64x2048_1_0) bitsLt_bf16_f32 := by
  show StableHlo.after hostOps0 (W0 m ρ c) (Proc.devRef .tc main_v5) = _
  after_results

theorem V1_v5 (c : Dev nD) : mat (V1 m ρ c main_v5) = Cert.Spec.wgt (mat (m ((c : Thread nD τ).loc main_arg3))) (mat (m ((c : Thread nD τ).loc main_arg2))) := by
  rw [V1_v5_term m ρ c]; exact wgt_read _ _

theorem V1_v11_term (c : Dev nD) : (V1 m ρ c main_v11 : S64x2048.Idx → EReal)
    = truncf (F := Ideal) .bf16 (transpose S64x2048 [1, 0]
        (mulf (m ((c : Thread nD τ).loc main_arg6) : S2048x64.Idx → EReal) (Host.cos (F := Ideal) (m ((c : Thread nD τ).loc main_arg5) : S2048x64.Idx → EReal)))
        transposes_S2048x64_S64x2048_1_0) bitsLt_bf16_f32 := by
  show StableHlo.after hostOps0 (W0 m ρ c) (Proc.devRef .tc main_v11) = _
  after_results

theorem V1_v11 (c : Dev nD) : mat (V1 m ρ c main_v11) = Cert.Spec.wgt (mat (m ((c : Thread nD τ).loc main_arg6))) (mat (m ((c : Thread nD τ).loc main_arg5))) := by
  rw [V1_v11_term m ρ c]; exact wgt_read _ _

theorem V1_v17_term (c : Dev nD) : (V1 m ρ c main_v17 : S64x2048.Idx → EReal)
    = truncf (F := Ideal) .bf16 (transpose S64x2048 [1, 0]
        (mulf (m ((c : Thread nD τ).loc main_arg9) : S2048x64.Idx → EReal) (Host.cos (F := Ideal) (m ((c : Thread nD τ).loc main_arg8) : S2048x64.Idx → EReal)))
        transposes_S2048x64_S64x2048_1_0) bitsLt_bf16_f32 := by
  show StableHlo.after hostOps0 (W0 m ρ c) (Proc.devRef .tc main_v17) = _
  after_results

theorem V1_v17 (c : Dev nD) : mat (V1 m ρ c main_v17) = Cert.Spec.wgt (mat (m ((c : Thread nD τ).loc main_arg9))) (mat (m ((c : Thread nD τ).loc main_arg8))) := by
  rw [V1_v17_term m ρ c]; exact wgt_read _ _

theorem V1_v23_term (c : Dev nD) : (V1 m ρ c main_v23 : S64x2048.Idx → EReal)
    = truncf (F := Ideal) .bf16 (transpose S64x2048 [1, 0]
        (mulf (m ((c : Thread nD τ).loc main_arg12) : S2048x64.Idx → EReal) (Host.cos (F := Ideal) (m ((c : Thread nD τ).loc main_arg11) : S2048x64.Idx → EReal)))
        transposes_S2048x64_S64x2048_1_0) bitsLt_bf16_f32 := by
  show StableHlo.after hostOps0 (W0 m ρ c) (Proc.devRef .tc main_v23) = _
  after_results

theorem V1_v23 (c : Dev nD) : mat (V1 m ρ c main_v23) = Cert.Spec.wgt (mat (m ((c : Thread nD τ).loc main_arg12))) (mat (m ((c : Thread nD τ).loc main_arg11))) := by
  rw [V1_v23_term m ρ c]; exact wgt_read _ _

/-! ## The result -/

theorem W5_v29_term (c : Dev nD) : (W5 m ρ c (Proc.devRef .tc main_v29) : S2x2048x2048.Idx → EReal)
    = shapeCast S2x2048x2048 (W4 m ρ c (Proc.devRef .tc main_v28) : S4096x2048.Idx → EReal) shapeCasts_S4096x2048_S2x2048x2048 := by
  show StableHlo.after hostOps3 (W4 m ρ c) (Proc.devRef .tc main_v29) = _
  after_results
  rfl

theorem W5_v29 (c : Dev nD) : W5 m ρ c (Proc.devRef .tc main_v29)
    = fun i : S2x2048x2048.Idx => mat (W4 m ρ c (Proc.devRef .tc main_v28)) (rowOf (i 0) (i 1)) (i 2) := by
  rw [W5_v29_term m ρ c]; exact unflat_read _

end Cert.KernelIdeal.Val
end
-- ==== Proof.KValue.lean ====
/-
  The kernel's result array as the model of the argument arrays: the chain through the three regions.

  The last host operation reshapes region 2's output; region 2's output is the factored projection of the attention
  output, which region 1 left, by the output parameters, which no region wrote; region 1's output is the attention of
  the three projections region 0 left; and region 0's outputs are the factored projections of the flattened input by
  the staged parameter matrices. Each step is one region's array after its run (a function of the arrays the region
  found) composed with where those arrays came from.
-/
import proofs.«159476_j19301583029009_2_alg».proof.Proof.Gen.KernelIdeal.Frame
import proofs.«159476_j19301583029009_2_alg».proof.Proof.Spec
import proofs.«159476_j19301583029009_2_alg».proof.Proof.Region0
import proofs.«159476_j19301583029009_2_alg».proof.Proof.Region1
import proofs.«159476_j19301583029009_2_alg».proof.Proof.Region2
import proofs.«159476_j19301583029009_2_alg».proof.Proof.HostGlue

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Spec (mat mat3 rowOf)

variable (m : (ℓ : Loc nD τ sig) → Buf (Elt Ideal) ℓ) (ρ : Dev nD → PrngReg)

/-- Reading a function of the two coordinates back as a matrix returns it. -/
theorem mat_mk {n k : Nat} (f : Fin n → Fin k → EReal) :
    mat (fun i : (⟨2, ![n, k]⟩ : Shape).Idx => f (i 0) (i 1)) = f := rfl

/-- The three projections as region 0 leaves them, from the launch memory. -/
theorem q_arr (c : Dev nD) : mat (V2 m ρ c main_v26_0)
    = Cert.Spec.projT (mat3 (m ((c : Thread nD τ).loc main_arg0))) (Cert.Spec.tr (mat (m ((c : Thread nD τ).loc main_arg1))))
        (Cert.Spec.wgt (mat (m ((c : Thread nD τ).loc main_arg3))) (mat (m ((c : Thread nD τ).loc main_arg2)))) := by
  have h : V2 m ρ c main_v26_0 = _ := (W2_arr m ρ c 7).trans (final0_7 (V1 m ρ) c)
  rw [h, mat_mk, V1_v25, V1_v1, V1_v5]
theorem k_arr (c : Dev nD) : mat (V2 m ρ c main_v26_1)
    = Cert.Spec.projT (mat3 (m ((c : Thread nD τ).loc main_arg0))) (Cert.Spec.tr (mat (m ((c : Thread nD τ).loc main_arg4))))
        (Cert.Spec.wgt (mat (m ((c : Thread nD τ).loc main_arg6))) (mat (m ((c : Thread nD τ).loc main_arg5)))) := by
  have h : V2 m ρ c main_v26_1 = _ := (W2_arr m ρ c 8).trans (final0_8 (V1 m ρ) c)
  rw [h, mat_mk, V1_v25, V1_v7, V1_v11]
theorem v_arr (c : Dev nD) : mat (V2 m ρ c main_v26_2)
    = Cert.Spec.projT (mat3 (m ((c : Thread nD τ).loc main_arg0))) (Cert.Spec.tr (mat (m ((c : Thread nD τ).loc main_arg7))))
        (Cert.Spec.wgt (mat (m ((c : Thread nD τ).loc main_arg9))) (mat (m ((c : Thread nD τ).loc main_arg8)))) := by
  have h : V2 m ρ c main_v26_2 = _ := (W2_arr m ρ c 9).trans (final0_9 (V1 m ρ) c)
  rw [h, mat_mk, V1_v25, V1_v13, V1_v17]

/-- The attention output as region 1 leaves it. -/
theorem attn_arr (c : Dev nD) : mat (V3 m ρ c main_v27)
    = Cert.Spec.attn (mat (V2 m ρ c main_v26_0)) (mat (V2 m ρ c main_v26_1)) (mat (V2 m ρ c main_v26_2)) := by
  have h : V3 m ρ c main_v27 = _ := (W3_arr m ρ c 3).trans (final1_3 (V2 m ρ) c)
  rw [h, mat_mk]

/-- The output projection's two parameter matrices reach region 2 as the host operations staged them: no region
    writes them. -/
theorem bo_arr (c : Dev nD) : mat (V3 m ρ c main_v19) = Cert.Spec.tr (mat (m ((c : Thread nD τ).loc main_arg10))) := by
  have h : V3 m ρ c main_v19 = V1 m ρ c main_v19 := (W3_of_ne m ρ c main_v19 (by decide)).trans (W2_of_ne m ρ c main_v19 (by decide))
  rw [h, V1_v19]
theorem wo_arr (c : Dev nD) : mat (V3 m ρ c main_v23)
    = Cert.Spec.wgt (mat (m ((c : Thread nD τ).loc main_arg12))) (mat (m ((c : Thread nD τ).loc main_arg11))) := by
  have h : V3 m ρ c main_v23 = V1 m ρ c main_v23 := (W3_of_ne m ρ c main_v23 (by decide)).trans (W2_of_ne m ρ c main_v23 (by decide))
  rw [h, V1_v23]

/-- THE RESULT: what the last boundary's contents hold at the result's reference is the model of the launch memory's
    argument arrays, row (b, s), column o. -/
theorem result_v29 (c : Dev nD) : W5 m ρ c (Proc.devRef .tc main_v29)
    = fun i : S2x2048x2048.Idx => Cert.Spec.model (mat3 (m ((c : Thread nD τ).loc main_arg0)))
        (mat (m ((c : Thread nD τ).loc main_arg1))) (mat (m ((c : Thread nD τ).loc main_arg2))) (mat (m ((c : Thread nD τ).loc main_arg3)))
        (mat (m ((c : Thread nD τ).loc main_arg4))) (mat (m ((c : Thread nD τ).loc main_arg5))) (mat (m ((c : Thread nD τ).loc main_arg6)))
        (mat (m ((c : Thread nD τ).loc main_arg7))) (mat (m ((c : Thread nD τ).loc main_arg8))) (mat (m ((c : Thread nD τ).loc main_arg9)))
        (mat (m ((c : Thread nD τ).loc main_arg10))) (mat (m ((c : Thread nD τ).loc main_arg11))) (mat (m ((c : Thread nD τ).loc main_arg12)))
        (rowOf (i 0) (i 1)) (i 2) := by
  have h28 : W4 m ρ c (Proc.devRef .tc main_v28) = _ := (W4_arr m ρ c 3).trans (final2_3 (V3 m ρ) c)
  rw [W5_v29, h28, mat_mk, attn_arr, q_arr, k_arr, v_arr, bo_arr, wo_arr]
  rfl

end Cert.KernelIdeal.Val

end
-- ==== Proof.RefProj.lean ====
/-
  The reference's projection stages, read at one element.

  A projection stage is two contractions: the rows of the first operand against the 64 basis rows, then the
  result against the modulation weights `amp · cos phase`. At row (b, s) and column o this is the factored
  projection of the specification, for ANY first operand: the same statement serves the query, key and value
  projections of the input and the last projection of the attention output.
-/
import proofs.«159476_j19301583029009_2_alg».proof.Proof.Gen.ReferenceIdeal.Read
import proofs.«159476_j19301583029009_2_alg».proof.Proof.Spec

noncomputable section

namespace Cert.ReferenceIdeal.RefProj

open Cert.ReferenceIdeal Cert.ReferenceIdeal.Gen Cert.ReferenceIdeal.Read Idealize.ShloMosaic Idealize.ShloMosaic.TcCoe Idealize.SL.Sem
open Idealize.ShloMosaic.ValueIdx
open Cert.Spec

/-- The two contractions of a projection at row (b, s), column o: the factored projection of the flattened
    first operand through the transposed basis and the weights. -/
theorem proj_apply (Y : (⟨S2x2048x2048, .f32⟩ : BufTy).Contents (Elt Ideal)) (B : (⟨S64x2048, .f32⟩ : BufTy).Contents (Elt Ideal))
    (P A : (⟨S2048x64, .f32⟩ : BufTy).Contents (Elt Ideal)) (b : Fin 2) (s o : Fin 2048) :
    val_main_v3 (F := Ideal) Y B P A (ix3 b s o)
      = projT (mat3 Y) (tr (mat B)) (wgt (mat A) (mat P)) (rowOf b s) o := by
  rw [val_main_v3_apply]
  unfold projT
  refine Finset.sum_congr rfl fun h _ => ?_
  rw [val_main_v0_apply, val_main_v2_apply, val_main_v1_apply, Ideal.mulf_def, Ideal.hostUnary_cos_def]
  have eA : ridx_main_v3 (ix3 b s o) h = ix2 o h := funext fun a => Fin.ext (by
    match a with
    | ⟨0, _⟩ => rfl
    | ⟨1, _⟩ => rfl)
  rw [eA]
  refine congrArg₂ (· * ·) (Finset.sum_congr rfl fun d _ => ?_) rfl
  have eY : lidx_main_v0 (lidx_main_v3 (ix3 b s o) h) d = ix3 (bOf (rowOf b s)) (sOf (rowOf b s)) d := by
    rw [bOf_rowOf, sOf_rowOf]
    exact funext fun a => Fin.ext (by
      match a with
      | ⟨0, _⟩ => rfl
      | ⟨1, _⟩ => rfl
      | ⟨2, _⟩ => rfl)
  have eB : ridx_main_v0 (lidx_main_v3 (ix3 b s o) h) d = ix2 h d := funext fun a => Fin.ext (by
    match a with
    | ⟨0, _⟩ => rfl
    | ⟨1, _⟩ => rfl)
  rw [eY, eB]
  rfl

/-- The key projection is the same stage over its own parameters. -/
theorem v7_eq (x0 : (⟨S2x2048x2048, .f32⟩ : BufTy).Contents (Elt Ideal)) (x4 : (⟨S64x2048, .f32⟩ : BufTy).Contents (Elt Ideal))
    (x5 x6 : (⟨S2048x64, .f32⟩ : BufTy).Contents (Elt Ideal)) :
    val_main_v7 (F := Ideal) x0 x4 x5 x6 = val_main_v3 (F := Ideal) x0 x4 x5 x6 := rfl

/-- The value projection is the same stage over its own parameters. -/
theorem v11_eq (x0 : (⟨S2x2048x2048, .f32⟩ : BufTy).Contents (Elt Ideal)) (x7 : (⟨S64x2048, .f32⟩ : BufTy).Contents (Elt Ideal))
    (x8 x9 : (⟨S2048x64, .f32⟩ : BufTy).Contents (Elt Ideal)) :
    val_main_v11 (F := Ideal) x0 x7 x8 x9 = val_main_v3 (F := Ideal) x0 x7 x8 x9 := rfl

/-- The last stage is the same projection, of the attention output. -/
theorem v38_eq (x0 : (⟨S2x2048x2048, .f32⟩ : BufTy).Contents (Elt Ideal)) (x1 : (⟨S64x2048, .f32⟩ : BufTy).Contents (Elt Ideal))
    (x2 x3 : (⟨S2048x64, .f32⟩ : BufTy).Contents (Elt Ideal)) (x4 : (⟨S64x2048, .f32⟩ : BufTy).Contents (Elt Ideal))
    (x5 x6 : (⟨S2048x64, .f32⟩ : BufTy).Contents (Elt Ideal)) (x7 : (⟨S64x2048, .f32⟩ : BufTy).Contents (Elt Ideal))
    (x8 x9 : (⟨S2048x64, .f32⟩ : BufTy).Contents (Elt Ideal)) (x10 : (⟨S64x2048, .f32⟩ : BufTy).Contents (Elt Ideal))
    (x11 x12 : (⟨S2048x64, .f32⟩ : BufTy).Contents (Elt Ideal)) :
    val_main_v38 (F := Ideal) x0 x1 x2 x3 x4 x5 x6 x7 x8 x9 x10 x11 x12
      = val_main_v3 (F := Ideal) (val_main_v34 (F := Ideal) x0 x1 x2 x3 x4 x5 x6 x7 x8 x9) x10 x11 x12 := rfl

end Cert.ReferenceIdeal.RefProj

end
-- ==== Proof.RefAttn.lean ====
/-
  The reference's attention stages, read at one element.

  The three projections are reshaped to (batch, position, head, lane) and transposed to (batch, head, position, lane);
  a reshape keeps the row-major position, so the element at (b, h, s, e) is the projection's at row (b, s), column
  h · 128 + e. The scores are the lane contraction times the scale; each row of scores is reduced by a maximum folded
  from −∞, shifted, exponentiated, summed and divided: the weights of the specification. The weighted sum of the value
  lanes, transposed and reshaped back, is the attention output at row (b, s), column c = (head of c, lane of c).
-/
import proofs.«159476_j19301583029009_2_alg».proof.Proof.Gen.ReferenceIdeal.Read
import proofs.«159476_j19301583029009_2_alg».proof.Proof.Spec

noncomputable section

namespace Cert.ReferenceIdeal.RefAttn

open Cert.ReferenceIdeal Cert.ReferenceIdeal.Gen Cert.ReferenceIdeal.Read Idealize.ShloMosaic Idealize.ShloMosaic.TcCoe Idealize.SL.Sem
open Idealize.ShloMosaic.ValueIdx
open Cert.Spec

variable (x0 : (⟨S2x2048x2048, .f32⟩ : BufTy).Contents (Elt Ideal)) (x1 : (⟨S64x2048, .f32⟩ : BufTy).Contents (Elt Ideal)) (x2 x3 : (⟨S2048x64, .f32⟩ : BufTy).Contents (Elt Ideal)) (x4 : (⟨S64x2048, .f32⟩ : BufTy).Contents (Elt Ideal)) (x5 x6 : (⟨S2048x64, .f32⟩ : BufTy).Contents (Elt Ideal)) (x7 : (⟨S64x2048, .f32⟩ : BufTy).Contents (Elt Ideal)) (x8 x9 : (⟨S2048x64, .f32⟩ : BufTy).Contents (Elt Ideal))

/-! ## The projections by (batch, head, position, lane) -/

/-- A reshaped and transposed projection at (b, h, s, e) is the projection at row (b, s), column h · 128 + e. -/
theorem split_at (b : Fin 2) (h : Fin 16) (s : Fin 2048) (e : Fin 128) :
    val_main_v13 (F := Ideal) x0 x1 x2 x3 (ix4 b h s e) = val_main_v3 (F := Ideal) x0 x1 x2 x3 (ix3 b s (colOf h e)) := by
  rw [val_main_v13_apply, val_main_v12_apply]
  refine congrArg _ (funext fun a => Fin.ext ?_)
  have hb := b.isLt; have hh := h.isLt; have hs := s.isLt; have he := e.isLt
  match a with
  | ⟨0, _⟩ =>
    show (((b.val * 2048 + s.val) * 16 + h.val) * 128 + e.val) / 4194304 = b.val
    omega
  | ⟨1, _⟩ =>
    show (((b.val * 2048 + s.val) * 16 + h.val) * 128 + e.val) / 2048 % 2048 = s.val
    omega
  | ⟨2, _⟩ =>
    show (((b.val * 2048 + s.val) * 16 + h.val) * 128 + e.val) % 2048 = h.val * 128 + e.val
    omega

/-- The key projection goes through the same two layout stages. -/
theorem v15_eq : val_main_v15 (F := Ideal) x0 x4 x5 x6 = val_main_v13 (F := Ideal) x0 x4 x5 x6 := rfl

/-- The value projection goes through the same two layout stages. -/
theorem v17_eq : val_main_v17 (F := Ideal) x0 x7 x8 x9 = val_main_v13 (F := Ideal) x0 x7 x8 x9 := rfl

/-! ## The scores -/

/-- The scaled lane contraction at (b, h, s, j) is the score of position s against position j. -/
theorem score_at (b : Fin 2) (h : Fin 16) (s j : Fin 2048) :
    val_main_v20 (F := Ideal) x0 x1 x2 x3 x4 x5 x6 (ix4 b h s j)
      = score (mat3 (val_main_v3 (F := Ideal) x0 x1 x2 x3)) (mat3 (val_main_v3 (F := Ideal) x0 x4 x5 x6)) b h s j := by
  rw [val_main_v20_apply, val_main_v18_apply, val_main_v19_apply, val_main_cst_apply, Ideal.mulf_def, v15_eq]
  unfold score
  refine congrArg₂ (· * ·) (Finset.sum_congr rfl fun e _ => ?_) rfl
  have el : lidx_main_v18 (ix4 b h s j) e = ix4 b h s e := funext fun a => Fin.ext (by
    match a with
    | ⟨0, _⟩ => rfl
    | ⟨1, _⟩ => rfl
    | ⟨2, _⟩ => rfl
    | ⟨3, _⟩ => rfl)
  have er : ridx_main_v18 (ix4 b h s j) e = ix4 b h j e := funext fun a => Fin.ext (by
    match a with
    | ⟨0, _⟩ => rfl
    | ⟨1, _⟩ => rfl
    | ⟨2, _⟩ => rfl
    | ⟨3, _⟩ => rfl)
  rw [el, er, split_at, split_at]
  show _ = val_main_v3 (F := Ideal) x0 x1 x2 x3 (ix3 (bOf (rowOf b s)) (sOf (rowOf b s)) (colOf h e))
    * val_main_v3 (F := Ideal) x0 x4 x5 x6 (ix3 (bOf (rowOf b j)) (sOf (rowOf b j)) (colOf h e))
  rw [bOf_rowOf, sOf_rowOf, bOf_rowOf, sOf_rowOf]

/-! ## The row maximum -/

/-- The maximum over the key axis, folded from −∞, at (b, h, s): the row maximum of the scores of that row. -/
theorem max_at (b : Fin 2) (h : Fin 16) (s : Fin 2048) :
    val_main_v21 (F := Ideal) x0 x1 x2 x3 x4 x5 x6 (ix3 b h s)
      = rmax fun j => val_main_v20 (F := Ideal) x0 x1 x2 x3 x4 x5 x6 (ix4 b h s j) := by
  unfold val_main_v21
  generalize val_main_v20 (F := Ideal) x0 x1 x2 x3 x4 x5 x6 = y
  have hR : S2x16x2048x2048.Reduces [3] S2x16x2048 := by decide
  refine (Host.reduce_eq_fold_single (FloatOps.maximumf (F := Ideal) (φ := .f32)) y (val_main_cst_0 (F := Ideal))
    reducesTo_S2x16x2048x2048_S2x16x2048_d3 hR h_S_ (ix3 b h s)).trans ?_
  unfold rmax
  refine congrArg (Finset.fold _ _ · _) (funext fun k => ?_)
  exact congrArg y (funext fun a => Fin.ext (by
    match a with
    | ⟨0, _⟩ => rfl
    | ⟨1, _⟩ => rfl
    | ⟨2, _⟩ => rfl
    | ⟨3, _⟩ => rfl))

/-- The maximum with the broadcast −∞ changes nothing: the same row maximum. -/
theorem v23_at (b : Fin 2) (h : Fin 16) (s : Fin 2048) :
    val_main_v23 (F := Ideal) x0 x1 x2 x3 x4 x5 x6 (ix3 b h s)
      = rmax fun j => val_main_v20 (F := Ideal) x0 x1 x2 x3 x4 x5 x6 (ix4 b h s j) := by
  rw [val_main_v23_apply, val_main_v22_apply, val_main_cst_1_apply, Ideal.maximumf_def, max_at]
  exact max_negInf_rmax _

/-- The row maximum broadcast along the key axis. -/
theorem v25_at (b : Fin 2) (h : Fin 16) (s j : Fin 2048) :
    val_main_v25 (F := Ideal) x0 x1 x2 x3 x4 x5 x6 (ix4 b h s j)
      = rmax fun j' => val_main_v20 (F := Ideal) x0 x1 x2 x3 x4 x5 x6 (ix4 b h s j') := by
  rw [val_main_v25_apply, val_main_v24_apply]
  have e : idx_main_v24 (idx_main_v25 (ix4 b h s j)) = ix3 b h s := funext fun a => Fin.ext (by
    match a with
    | ⟨0, _⟩ => rfl
    | ⟨1, _⟩ => rfl
    | ⟨2, _⟩ => rfl)
  rw [e, v23_at]

/-! ## The weights -/

/-- The exponential of a score shifted by its row maximum. -/
theorem v27_at (b : Fin 2) (h : Fin 16) (s j : Fin 2048) :
    val_main_v27 (F := Ideal) x0 x1 x2 x3 x4 x5 x6 (ix4 b h s j)
      = Ideal.exp (val_main_v20 (F := Ideal) x0 x1 x2 x3 x4 x5 x6 (ix4 b h s j)
          - rmax fun j' => val_main_v20 (F := Ideal) x0 x1 x2 x3 x4 x5 x6 (ix4 b h s j')) := by
  rw [val_main_v27_apply, Ideal.hostUnary_exp_def, val_main_v26_apply, Ideal.subf_def, v25_at]

/-- The sum of a row's shifted exponentials: the sum starts from the word 0, which is 0. -/
theorem v28_at (b : Fin 2) (h : Fin 16) (s : Fin 2048) :
    val_main_v28 (F := Ideal) x0 x1 x2 x3 x4 x5 x6 (ix3 b h s)
      = ∑ j : Fin 2048, Ideal.exp (val_main_v20 (F := Ideal) x0 x1 x2 x3 x4 x5 x6 (ix4 b h s j)
          - rmax fun j' => val_main_v20 (F := Ideal) x0 x1 x2 x3 x4 x5 x6 (ix4 b h s j')) := by
  rw [val_main_v28_apply, val_main_cst_2_apply]
  show Ideal.ofBits .f32 0x00000000#32 + _ = _
  rw [Ideal.ofBits_zero_f32, zero_add]
  refine Finset.sum_congr rfl fun j _ => ?_
  have e : idx_main_v28 (ix3 b h s) j = ix4 b h s j := funext fun a => Fin.ext (by
    match a with
    | ⟨0, _⟩ => rfl
    | ⟨1, _⟩ => rfl
    | ⟨2, _⟩ => rfl
    | ⟨3, _⟩ => rfl)
  rw [e, v27_at]

/-- The quotient at (b, h, s, j): the weight of key position j in the row of scores of (b, h, s). -/
theorem v31_at (b : Fin 2) (h : Fin 16) (s j : Fin 2048) :
    val_main_v31 (F := Ideal) x0 x1 x2 x3 x4 x5 x6 (ix4 b h s j)
      = smax (fun j' => val_main_v20 (F := Ideal) x0 x1 x2 x3 x4 x5 x6 (ix4 b h s j')) j := by
  rw [val_main_v31_apply, Ideal.hostDivf_def, v27_at, val_main_v30_apply, val_main_v29_apply]
  have e : idx_main_v29 (idx_main_v30 (ix4 b h s j)) = ix3 b h s := funext fun a => Fin.ext (by
    match a with
    | ⟨0, _⟩ => rfl
    | ⟨1, _⟩ => rfl
    | ⟨2, _⟩ => rfl)
  rw [e, v28_at]
  rfl

/-! ## The weighted sum of the values, and back to rows and columns -/

/-- The contraction of the weights against the value lanes at (b, h, s, e). -/
theorem v32_at (b : Fin 2) (h : Fin 16) (s : Fin 2048) (e : Fin 128) :
    val_main_v32 (F := Ideal) x0 x1 x2 x3 x4 x5 x6 x7 x8 x9 (ix4 b h s e)
      = ∑ j : Fin 2048, smax (fun j' => val_main_v20 (F := Ideal) x0 x1 x2 x3 x4 x5 x6 (ix4 b h s j')) j
          * val_main_v3 (F := Ideal) x0 x7 x8 x9 (ix3 b j (colOf h e)) := by
  rw [val_main_v32_apply, v17_eq]
  refine Finset.sum_congr rfl fun j _ => ?_
  have el : lidx_main_v32 (ix4 b h s e) j = ix4 b h s j := funext fun a => Fin.ext (by
    match a with
    | ⟨0, _⟩ => rfl
    | ⟨1, _⟩ => rfl
    | ⟨2, _⟩ => rfl
    | ⟨3, _⟩ => rfl)
  have er : ridx_main_v32 (ix4 b h s e) j = ix4 b h j e := funext fun a => Fin.ext (by
    match a with
    | ⟨0, _⟩ => rfl
    | ⟨1, _⟩ => rfl
    | ⟨2, _⟩ => rfl
    | ⟨3, _⟩ => rfl)
  rw [el, er, v31_at, split_at]

/-- The transposed and reshaped result at row (b, s), column c is the contraction at (b, head of c, s, lane of c). -/
theorem v34_at (b : Fin 2) (s c : Fin 2048) :
    val_main_v34 (F := Ideal) x0 x1 x2 x3 x4 x5 x6 x7 x8 x9 (ix3 b s c)
      = val_main_v32 (F := Ideal) x0 x1 x2 x3 x4 x5 x6 x7 x8 x9 (ix4 b (hOf c) s (dOf c)) := by
  rw [val_main_v34_apply, val_main_v33_apply]
  refine congrArg _ (funext fun a => Fin.ext ?_)
  have hb := b.isLt; have hs := s.isLt; have hc := c.isLt
  match a with
  | ⟨0, _⟩ =>
    show ((b.val * 2048 + s.val) * 2048 + c.val) / 4194304 = b.val
    omega
  | ⟨1, _⟩ =>
    show ((b.val * 2048 + s.val) * 2048 + c.val) / 128 % 16 = c.val / 128
    omega
  | ⟨2, _⟩ =>
    show ((b.val * 2048 + s.val) * 2048 + c.val) / 2048 % 2048 = s.val
    omega
  | ⟨3, _⟩ =>
    show ((b.val * 2048 + s.val) * 2048 + c.val) % 128 = c.val % 128
    omega

/-- The attention output at row (b, s), column c: the attention of the specification over the three projections read
    as matrices of flattened rows. -/
theorem attn_apply (b : Fin 2) (s c : Fin 2048) :
    val_main_v34 (F := Ideal) x0 x1 x2 x3 x4 x5 x6 x7 x8 x9 (ix3 b s c)
      = attn (mat3 (val_main_v3 (F := Ideal) x0 x1 x2 x3)) (mat3 (val_main_v3 (F := Ideal) x0 x4 x5 x6))
          (mat3 (val_main_v3 (F := Ideal) x0 x7 x8 x9)) (rowOf b s) c := by
  rw [v34_at, v32_at]
  unfold attn
  rw [bOf_rowOf, sOf_rowOf]
  have hf : (fun j' => val_main_v20 (F := Ideal) x0 x1 x2 x3 x4 x5 x6 (ix4 b (hOf c) s j'))
      = score (mat3 (val_main_v3 (F := Ideal) x0 x1 x2 x3)) (mat3 (val_main_v3 (F := Ideal) x0 x4 x5 x6)) b (hOf c) s :=
    funext fun j' => score_at x0 x1 x2 x3 x4 x5 x6 b (hOf c) s j'
  rw [hf]
  refine Finset.sum_congr rfl fun j _ => ?_
  show _ = _ * val_main_v3 (F := Ideal) x0 x7 x8 x9 (ix3 (bOf (rowOf b j)) (sOf (rowOf b j)) (colOf (hOf c) (dOf c)))
  rw [bOf_rowOf, sOf_rowOf]

end Cert.ReferenceIdeal.RefAttn

end
-- ==== Proof.RefValue.lean ====
/-
  The reference's result as the specification's layer.

  Read as matrices of flattened rows, each of the three projections of the input is the factored projection, the
  attention output is the attention of those three matrices, and the result is the factored projection of the
  attention output: the layer of the specification at row (b, s) and the column.
-/
import proofs.«159476_j19301583029009_2_alg».proof.Proof.RefProj
import proofs.«159476_j19301583029009_2_alg».proof.Proof.RefAttn

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open Cert.Spec (mat mat3 rowOf)

/-- A projection stage, as a matrix of flattened rows, is the factored projection. -/
theorem mat3_proj (Y : (⟨S2x2048x2048, .f32⟩ : BufTy).Contents (Elt Ideal)) (B : (⟨S64x2048, .f32⟩ : BufTy).Contents (Elt Ideal)) (P A : (⟨S2048x64, .f32⟩ : BufTy).Contents (Elt Ideal)) :
    mat3 (val_main_v3 (F := Ideal) Y B P A)
      = Cert.Spec.projT (mat3 Y) (Cert.Spec.tr (mat B)) (Cert.Spec.wgt (mat A) (mat P)) := by
  funext r o
  show val_main_v3 (F := Ideal) Y B P A (ix3 (Cert.Spec.bOf r) (Cert.Spec.sOf r) o) = _
  rw [RefProj.proj_apply, Cert.Spec.rowOf_bOf_sOf]

/-- The attention output, as a matrix of flattened rows, is the attention of the three projections' matrices. -/
theorem mat3_attn (x0 : (⟨S2x2048x2048, .f32⟩ : BufTy).Contents (Elt Ideal)) (x1 : (⟨S64x2048, .f32⟩ : BufTy).Contents (Elt Ideal)) (x2 x3 : (⟨S2048x64, .f32⟩ : BufTy).Contents (Elt Ideal)) (x4 : (⟨S64x2048, .f32⟩ : BufTy).Contents (Elt Ideal)) (x5 x6 : (⟨S2048x64, .f32⟩ : BufTy).Contents (Elt Ideal)) (x7 : (⟨S64x2048, .f32⟩ : BufTy).Contents (Elt Ideal)) (x8 x9 : (⟨S2048x64, .f32⟩ : BufTy).Contents (Elt Ideal)) :
    mat3 (val_main_v34 (F := Ideal) x0 x1 x2 x3 x4 x5 x6 x7 x8 x9)
      = Cert.Spec.attn (mat3 (val_main_v3 (F := Ideal) x0 x1 x2 x3)) (mat3 (val_main_v3 (F := Ideal) x0 x4 x5 x6))
          (mat3 (val_main_v3 (F := Ideal) x0 x7 x8 x9)) := by
  funext r c
  show val_main_v34 (F := Ideal) x0 x1 x2 x3 x4 x5 x6 x7 x8 x9 (ix3 (Cert.Spec.bOf r) (Cert.Spec.sOf r) c) = _
  rw [RefAttn.attn_apply, Cert.Spec.rowOf_bOf_sOf]

/-- The reference's result at (b, s, c) is the layer at row b · 2048 + s, column c. -/
theorem result_eq (x0 : (⟨S2x2048x2048, .f32⟩ : BufTy).Contents (Elt Ideal)) (x1 : (⟨S64x2048, .f32⟩ : BufTy).Contents (Elt Ideal)) (x2 x3 : (⟨S2048x64, .f32⟩ : BufTy).Contents (Elt Ideal)) (x4 : (⟨S64x2048, .f32⟩ : BufTy).Contents (Elt Ideal)) (x5 x6 : (⟨S2048x64, .f32⟩ : BufTy).Contents (Elt Ideal)) (x7 : (⟨S64x2048, .f32⟩ : BufTy).Contents (Elt Ideal)) (x8 x9 : (⟨S2048x64, .f32⟩ : BufTy).Contents (Elt Ideal)) (x10 : (⟨S64x2048, .f32⟩ : BufTy).Contents (Elt Ideal)) (x11 x12 : (⟨S2048x64, .f32⟩ : BufTy).Contents (Elt Ideal)) :
    val_main_v38 (F := Ideal) x0 x1 x2 x3 x4 x5 x6 x7 x8 x9 x10 x11 x12
      = fun i : S2x2048x2048.Idx => Cert.Spec.model (mat3 x0) (mat x1) (mat x2) (mat x3) (mat x4) (mat x5) (mat x6) (mat x7) (mat x8) (mat x9) (mat x10) (mat x11) (mat x12) (rowOf (i 0) (i 1)) (i 2) := by
  funext i
  obtain ⟨b, s, c, rfl⟩ : ∃ b s c, i = ix3 b s c := ⟨i 0, i 1, i 2, eq_ix3 i⟩
  show val_main_v38 (F := Ideal) x0 x1 x2 x3 x4 x5 x6 x7 x8 x9 x10 x11 x12 (ix3 b s c)
    = Cert.Spec.model (mat3 x0) (mat x1) (mat x2) (mat x3) (mat x4) (mat x5) (mat x6) (mat x7) (mat x8) (mat x9) (mat x10) (mat x11) (mat x12) (rowOf b s) c
  rw [RefProj.v38_eq, RefProj.proj_apply, mat3_attn, mat3_proj, mat3_proj, mat3_proj]
  rfl

end Cert.ReferenceIdeal.RefValue

end
-- ==== Proof.lean ====
/-
  The certificate of a holographic attention layer against its plain formulation, on the extended reals.

  Both programs compute, from the input [2, 2048, 2048] and four parameter triples (basis, phase, amplitude), the same
  expression (Proof/Spec.lean, `Cert.Spec.model`): three rank-64 factored projections (queries, keys, values), softmax
  attention inside each of the 2 · 16 (batch, head) pairs with the scores scaled by one fixed single-precision word, and
  a fourth factored projection of the attention output. The kernel works on the flattened [4096, 2048] arrays in three
  regions — row blocks of 512 for the projections, a (512 × 128) query tile against the whole (2048 × 128) key and value
  slices of its batch and head for the attention — with the transposed parameter matrices staged by host operations; the
  reference works on [2, 16, 2048, ·] arrays between reshapes and transposes. At the ideal values a change of float
  format is the identity and every matrix product and lane reduction is a plain finite sum, so the two differ only in
  how the same sums and the same row maxima are indexed: no law beyond re-indexing joins them, and the precondition is
  never opened.

  The parts: Proof/KRun.lean (the kernel's run with the result array named), Proof/Region0.lean, Region1.lean,
  Region2.lean (each region's output array as one function of its input arrays), Proof/HostGlue.lean (the staged
  parameter matrices and the final reshape), Proof/KValue.lean (the chain through the three regions),
  Proof/RefValue.lean (the reference's stages read as the same function), and below the five claims.
-/
import proofs.«159476_j19301583029009_2_alg».proof.Defs
import proofs.«159476_j19301583029009_2_alg».proof.Proof.Gen.Kernel
import proofs.«159476_j19301583029009_2_alg».proof.Proof.Gen.Kernel.Skeleton
import proofs.«159476_j19301583029009_2_alg».proof.Proof.Gen.Kernel.Launch
import proofs.«159476_j19301583029009_2_alg».proof.Proof.Gen.Kernel.Points
import proofs.«159476_j19301583029009_2_alg».proof.Proof.Gen.Kernel.Frame
import proofs.«159476_j19301583029009_2_alg».proof.Proof.Gen.KernelIdeal
import proofs.«159476_j19301583029009_2_alg».proof.Proof.Gen.KernelIdeal.Skeleton
import proofs.«159476_j19301583029009_2_alg».proof.Proof.Gen.KernelIdeal.Launch
import proofs.«159476_j19301583029009_2_alg».proof.Proof.Gen.KernelIdeal.Points
import proofs.«159476_j19301583029009_2_alg».proof.Proof.Gen.KernelIdeal.Frame
import proofs.«159476_j19301583029009_2_alg».proof.Proof.Gen.ReferenceIdeal
import proofs.«159476_j19301583029009_2_alg».proof.Proof.Gen.Pre_finite_inputs
import proofs.«159476_j19301583029009_2_alg».proof.Proof.Gen.ReferenceIdeal.Read
import proofs.«159476_j19301583029009_2_alg».proof.Proof.Spec
import proofs.«159476_j19301583029009_2_alg».proof.Proof.KRun
import proofs.«159476_j19301583029009_2_alg».proof.Proof.KValue
import proofs.«159476_j19301583029009_2_alg».proof.Proof.RefValue
import Idealize.ShloMosaic.Adequacy
import Idealize.ShloMosaic.Init

noncomputable section

namespace Cert.Proof

open Idealize.ShloMosaic Idealize.ShloMosaic.TcCoe Idealize.SL.Sem
open Cert.Spec (mat mat3 rowOf)

/-- The result array as one function of the thirteen argument arrays: the model at row (b, s), column o. -/
def modelArr (x0 : (⟨3, ![2, 2048, 2048]⟩ : Shape).Idx → EReal) (x1 : (⟨2, ![64, 2048]⟩ : Shape).Idx → EReal) (x2 : (⟨2, ![2048, 64]⟩ : Shape).Idx → EReal) (x3 : (⟨2, ![2048, 64]⟩ : Shape).Idx → EReal) (x4 : (⟨2, ![64, 2048]⟩ : Shape).Idx → EReal) (x5 : (⟨2, ![2048, 64]⟩ : Shape).Idx → EReal) (x6 : (⟨2, ![2048, 64]⟩ : Shape).Idx → EReal) (x7 : (⟨2, ![64, 2048]⟩ : Shape).Idx → EReal) (x8 : (⟨2, ![2048, 64]⟩ : Shape).Idx → EReal) (x9 : (⟨2, ![2048, 64]⟩ : Shape).Idx → EReal) (x10 : (⟨2, ![64, 2048]⟩ : Shape).Idx → EReal) (x11 : (⟨2, ![2048, 64]⟩ : Shape).Idx → EReal) (x12 : (⟨2, ![2048, 64]⟩ : Shape).Idx → EReal) :
    (⟨3, ![2, 2048, 2048]⟩ : Shape).Idx → EReal :=
  fun i => Cert.Spec.model (mat3 x0) (mat x1) (mat x2) (mat x3) (mat x4) (mat x5) (mat x6) (mat x7) (mat x8) (mat x9) (mat x10) (mat x11) (mat x12) (rowOf (i 0) (i 1)) (i 2)

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was idealized: nothing to preserve. -/
theorem preserves : Cert.preserves_Kernel_KernelIdeal := trivial

/-- From memories agreeing on the arguments both programs end with the result array at the model of the arguments:
    the kernel by its named run and the chain through its three regions, the reference by its run read stage by
    stage. -/
theorem algebraic : Cert.algebraic_KernelIdeal_ReferenceIdeal := by
  intro m ρ m' ρ' _ hagree
  refine ⟨fun c => modelArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Val.result_v29 m ρ c), (h c).2⟩)
      (Cert.KernelIdeal.Val.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    refine (h c).1.trans ?_
    rw [Cert.ReferenceIdeal.Read.val_main_v38_eq, Cert.ReferenceIdeal.RefValue.result_eq]
    show modelArr _ _ _ _ _ _ _ _ _ _ _ _ _ = modelArr _ _ _ _ _ _ _ _ _ _ _ _ _
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
